-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := mulf main_arg0 main_arg0
  let main_cst_0 : FVec F S_ .f32 := constant S_ .f32 0x00000000#32
  let main_v5 : FVec F S8192 .f32 := (fun x v => Host.reduceAdd x v reducesTo_S8192x512_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  transposes_S512x512_p1_0_S512x512 : S512x512.Transposes [1, 0] S512x512
  iota_S512x512_d0_w32 : S512x512.Iotas .tc 32 [0]
  iota_S512x512_d1_w32 : S512x512.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  natLt_1_32 : 1 < 32
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S512x8192, .f32⟩
  | .hbm, ⟨10, _⟩ => ⟨S8192x8192, .f32⟩
  | .hbm, ⟨11, _⟩ => ⟨S_, .i1⟩
  | .hbm, ⟨12, _⟩ => ⟨S8192x8192, .i1⟩
  | .hbm, ⟨13, _⟩ => ⟨S8192x8192, .i32⟩
  | .hbm, ⟨14, _⟩ => ⟨S_, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .i1⟩
  | .hbm, ⟨20, _⟩ => ⟨S8192x8192, .i1⟩
  | .hbm, ⟨21, _⟩ => ⟨S8192x8192, .i1⟩
  | .hbm, ⟨22, _⟩ => ⟨S8192x1, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.RunLater.lean ====
/-
  The kernel's body on whole staging buffers, at a grid point other than the first: the conditional on "both grid
  coordinates are zero" is not taken; the four input buffers are read and left as found; the first accumulator gains the
  tile's masked sum of similarities, the second the tile's count of masked-in pairs. At any instance of the float operations.
-/
import proofs.«125900_j5763846111471_1_alg».proof.Proof.Gen.Kernel.Launch
import proofs.«125900_j5763846111471_1_alg».proof.Proof.Gen.Kernel.Skeleton
import proofs.«125900_j5763846111471_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, read off the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other. -/
theorem hcond0 : ∀ t : Fin cfg0.N, cond0 (grid0.coords t) ↔ t.val = 0 :=
  (by decide +kernel : ∀ t : Fin grid0.N, cond0 (grid0.coords t) ↔ t.val = 0)

/-- The offset of a whole-buffer rectangle is zero on both axes. -/
theorem hz2 : (![0, 0] : Fin 2 → Nat) = fun _ => 0 := by
  funext a; fin_cases a <;> rfl

set_option maxHeartbeats 1000000 in
/-- At a grid point other than the first the body leaves its four input buffers as it found them and adds the
    tile's masked sum of similarities to the first accumulator and the tile's count of masked pairs to the second. -/
theorem run_later (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬ cond0 i)
    (x0 x1 : Vec F S512x512 .f32) (x2 : Vec F S512x1 .i32) (x3 : Vec F S1x512 .i32) (a4 a5 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay6 x0 x1) (k0_pay7 i x2 x3) a4)
            ∗ owns (c : Thread nD τ) arg7 fullShare (k0_pay3 (k0_pay7 i x2 x3) a5)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (View.cover_of_tiled [⟨_, _⟩] S1x1.size (by rfl)), View.canon_unit_zero hz2]
    simp only [View.readAt_eq_ld, View.ld_unit_zero (S := S512x512) hz2, View.ld_unit_zero (S := S512x1) hz2,
      View.ld_unit_zero (S := S1x512) hz2, View.ld_unit_zero (S := S1x1) hz2]
  · iexists _; isplitr
    swap; · iexact H5
    ipureintro
    rw [View.read_writes_eq_canon _ _ _ (View.cover_of_tiled [⟨_, _⟩] S1x1.size (by rfl)), View.canon_unit_zero hz2]
    simp only [View.readAt_eq_ld, View.ld_unit_zero (S := S512x512) hz2, View.ld_unit_zero (S := S512x1) hz2,
      View.ld_unit_zero (S := S1x512) hz2, View.ld_unit_zero (S := S1x1) hz2]

end Cert.Kernel.Hand

end
-- ==== Proof.K.RunFirst.lean ====
/-
  The kernel's body at the first grid point: the conditional is taken, both accumulators are first set to zero whatever they
  held, and then gain the first tile's contribution as at any other point. At any instance of the float operations.
-/
import proofs.«125900_j5763846111471_1_alg».proof.Proof.Gen.Kernel.Launch
import proofs.«125900_j5763846111471_1_alg».proof.Proof.Gen.Kernel.Skeleton
import proofs.«125900_j5763846111471_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.K.RunLater

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first grid point the body first stores zero into both accumulators, whatever they held, and then adds the
    tile's masked sum of similarities to the first and the tile's count of masked pairs to the second; the four
    input buffers are left as found. -/
theorem run_first (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : cond0 i)
    (x0 x1 : Vec F S512x512 .f32) (x2 : Vec F S512x1 .i32) (x3 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay6 x0 x1) (k0_pay7 i x2 x3) (k0_pay4 (F := F)))
            ∗ owns (c : Thread nD τ) arg7 fullShare (k0_pay3 (k0_pay7 i x2 x3) (k0_pay5 (F := F)))) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  ·
    iexists _; isplitr
    swap; · iexact H4
    ipureintro
    sl_unfold_words
    rw [View.read_writes_eq_canon _ _ _ (fun y => ⟨_, List.mem_cons.2 (Or.inl rfl), View.mem_set_unit_zero (S := S1x1) hz2 inb_S1x1_S1x1_0_0 y⟩), View.canon_cons_unit_zero hz2]
    simp only [View.readCov_unit_zero (S := S1x1) _ hz2, View.readAt_eq_ld, View.ld_unit_zero (S := S512x512) hz2, View.ld_unit_zero (S := S512x1) hz2,
      View.ld_unit_zero (S := S1x512) hz2, View.ld_unit_zero (S := S1x1) hz2]
  ·
    iexists _; isplitr
    swap; · iexact H5
    ipureintro
    sl_unfold_words
    rw [View.read_writes_eq_canon _ _ _ (fun y => ⟨_, List.mem_cons.2 (Or.inl rfl), View.mem_set_unit_zero (S := S1x1) hz2 inb_S1x1_S1x1_0_0 y⟩), View.canon_cons_unit_zero hz2]
    simp only [View.readCov_unit_zero (S := S1x1) _ hz2, View.readAt_eq_ld, View.ld_unit_zero (S := S512x512) hz2, View.ld_unit_zero (S := S512x1) hz2,
      View.ld_unit_zero (S := S1x512) hz2, View.ld_unit_zero (S := S1x1) hz2]

end Cert.Kernel.Hand

end
-- ==== Proof.K.Data.lean ====
/-
  What every staging buffer holds after the body at every grid point, and the body's obligation there.
  An input window's buffer holds its block of the array (fetched at this point, or still there from the point that fetched
  it: the block index has not moved). The two scalar results are accumulators: after point n each holds zero plus the
  contributions of points 0 … n in grid order, defined by recursion on n; they are written back once, after the last point.
  The two windows that read the embedding array hold complementary halves of it.
-/
import proofs.«125900_j5763846111471_1_alg».proof.Proof.Gen.Kernel.Launch
import proofs.«125900_j5763846111471_1_alg».proof.Proof.Gen.Kernel.Skeleton
import proofs.«125900_j5763846111471_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the two reshapes of the label vector
    (into a column and into a row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two accumulators, point by point -/

/-- What one grid point adds to the first accumulator `a`: the sum, over the tile of rows `i` and columns `j` the point
    names, of the similarity of row and column where the pair is masked in. -/
def tile4 (c : Dev nD) (t : Fin cfg0.N) (a : Vec F S1x1 .f32) : Vec F S1x1 .f32 :=
  k0_pay2 (k0_pay6 (iblk m c 0 t) (iblk m c 1 t)) (k0_pay7 (grid0.coords t) (iblk m c 2 t) (iblk m c 3 t)) a
/-- What it adds to the second: the number of masked-in pairs of the tile. -/
def tile5 (c : Dev nD) (t : Fin cfg0.N) (a : Vec F S1x1 .f32) : Vec F S1x1 .f32 :=
  k0_pay3 (k0_pay7 (grid0.coords t) (iblk m c 2 t) (iblk m c 3 t)) a

/-- The grid point of a number (read modulo the number of points). -/
def pt (n : Nat) : Fin cfg0.N := ⟨n % cfg0.N, Nat.mod_lt _ (by decide)⟩
theorem pt_val (t : Fin cfg0.N) : pt t.val = t := Fin.ext (Nat.mod_eq_of_lt t.isLt)

/-- The first accumulator after point `n`: zero plus the contributions of the points up to `n`, in grid order. -/
def acc4 (c : Dev nD) : Nat → Vec F S1x1 .f32
  | 0 => tile4 m c (pt 0) (k0_pay4 (F := F))
  | n + 1 => tile4 m c (pt (n + 1)) (acc4 c n)
/-- The second accumulator after point `n`. -/
def acc5 (c : Dev nD) : Nat → Vec F S1x1 .f32
  | 0 => tile5 m c (pt 0) (k0_pay5 (F := F))
  | n + 1 => tile5 m c (pt (n + 1)) (acc5 c n)

theorem acc4_first (c : Dev nD) (t : Fin cfg0.N) (h : t.val = 0) : acc4 m c t.val = tile4 m c t (k0_pay4 (F := F)) := by
  rw [h]; show tile4 m c (pt 0) _ = _; rw [← h, pt_val]
theorem acc5_first (c : Dev nD) (t : Fin cfg0.N) (h : t.val = 0) : acc5 m c t.val = tile5 m c t (k0_pay5 (F := F)) := by
  rw [h]; show tile5 m c (pt 0) _ = _; rw [← h, pt_val]
theorem acc4_later (c : Dev nD) (t : Fin cfg0.N) (h : t.val ≠ 0) : acc4 m c t.val = tile4 m c t (acc4 m c (t.val - 1)) := by
  obtain ⟨n, hn⟩ := Nat.exists_eq_succ_of_ne_zero h
  rw [hn]; show tile4 m c (pt (n + 1)) (acc4 m c n) = _
  rw [show n + 1 = t.val from hn.symm, pt_val]; rfl
theorem acc5_later (c : Dev nD) (t : Fin cfg0.N) (h : t.val ≠ 0) : acc5 m c t.val = tile5 m c t (acc5 m c (t.val - 1)) := by
  obtain ⟨n, hn⟩ := Nat.exists_eq_succ_of_ne_zero h
  rw [hn]; show tile5 m c (pt (n + 1)) (acc5 m c n) = _
  rw [show n + 1 = t.val from hn.symm, pt_val]; rfl

/-! ## The proof data -/

/-- The proof data of the pipeline on core `c`: the arrays as the region finds them; after the body at point `t` each
    input's staging buffer at its block and the two outputs' at the accumulators; the invariant the scoped buffers no window stages (there are none); nothing owed. The two
    windows that read the embedding array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc4 m c t.val
    | ⟨5, _⟩ => acc5 m c t.val
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc4 m c t.val := by dsimp only [dats]
theorem after0_5 (c : Dev nD) (t : Fin cfg0.N) : (dats m 0 c).after 5 t = acc5 m c t.val := by dsimp only [dats]

/-- An input's current staging buffer holds its block at every point, fetched there or not: where it is not fetched the
    block index has not moved since the point that fetched it. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Neither output is written back before the last point. -/
theorem noflush4 (t : Fin cfg0.N) (ht : t.val ≠ 0) : (cfg0.win 4).flush ⟨t.val - 1, Nat.lt_of_le_of_lt (Nat.sub_le _ _) t.isLt⟩ = false := by
  rw [Bool.eq_false_iff]; intro h
  have h1 := (flush0_4 _).1 h
  have h2 : t.val < 256 := t.isLt
  simp only at h1; omega
theorem noflush5 (t : Fin cfg0.N) (ht : t.val ≠ 0) : (cfg0.win 5).flush ⟨t.val - 1, Nat.lt_of_le_of_lt (Nat.sub_le _ _) t.isLt⟩ = false := by
  rw [Bool.eq_false_iff]; intro h
  have h1 := (flush0_5 _).1 h
  have h2 : t.val < 256 := t.isLt
  simp only at h1; omega

/-- At the first point an output's staging buffer holds anything; -/
theorem before4_first (c : Dev nD) (t : Fin cfg0.N) (h : t.val = 0) (d) : (dats m 0 c).before 4 t d = d :=
  (dats m 0 c).before_out_reset 4 rfl t (.inl h) d
theorem before5_first (c : Dev nD) (t : Fin cfg0.N) (h : t.val = 0) (d) : (dats m 0 c).before 5 t d = d :=
  (dats m 0 c).before_out_reset 5 rfl t (.inl h) d
/-- at a later point, the accumulator the point before left. -/
theorem before4_later (c : Dev nD) (t : Fin cfg0.N) (h : t.val ≠ 0) (d) : (dats m 0 c).before 4 t d = acc4 m c (t.val - 1) :=
  ((dats m 0 c).before_out_kept 4 rfl t h (noflush4 t h) (fun _ => rfl) (fun _ _ => rfl) d).trans (after0_4 m c _)
theorem before5_later (c : Dev nD) (t : Fin cfg0.N) (h : t.val ≠ 0) (d) : (dats m 0 c).before 5 t d = acc5 m c (t.val - 1) :=
  ((dats m 0 c).before_out_kept 5 rfl t h (noflush5 t h) (fun _ => rfl) (fun _ _ => rfl) d).trans (after0_5 m c _)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks; at the first point the accumulators are reset and the
    tile added, at a later one the tile is added to what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val = 0
  · simp only [before4_first m c t h0, before5_first m c t h0]
    rw [acc4_first m c t h0, acc5_first m c t h0]
    unfold tile4 tile5
    iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((hcond0 t).2 h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before4_later m c t h0, before5_later m c t h0]
    rw [acc4_later m c t h0, acc5_later m c t h0]
    unfold tile4 tile5
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun h => h0 ((hcond0 t).1 h)) (iblk m c 0 t) (iblk m c 1 t) (iblk m c 2 t) (iblk m c 3 t)
      (acc4 m c (t.val - 1)) (acc5 m c (t.val - 1)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of @main: the two reshapes of the label vector, the region over the 256 grid points, and the three host lines
  that read the two 1 × 1 results as scalars and divide.
  The embedding array is handed to the region through two windows, so its one points-to is split into two halves at entry,
  one per window (both windows only read). After the region the host lines run over the five buffers they touch; the two
  results are not written by them, the labels and the embedding array are not touched. The run ends with the result buffer
  at the quotient the host lines compute and both arguments as launched — at any instance of the float operations, which
  is the frame of both printings of the kernel and the first half of the value claim.
-/
import proofs.«125900_j5763846111471_1_alg».proof.Proof.Gen.Kernel.Launch
import proofs.«125900_j5763846111471_1_alg».proof.Proof.Gen.Kernel.Skeleton
import proofs.«125900_j5763846111471_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs unscopedRest unscopedRestP scopedRest arrRef)

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes of the labels, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The buffers when the host lines after the region start: the two results at what the region wrote back, every other
    buffer as the region found it. -/
def Wt (c : Dev nD) : Valuation τ sig (Elt F) :=
  Function.update (Function.update (V0 m c) (Proc.devRef .tc main_v2_0) ((dats m 0 c).arrAt 4 cfg0.N)) (Proc.devRef .tc main_v2_1) ((dats m 0 c).arrAt 5 cfg0.N)
/-- The buffers at the end. -/
def Wfin (c : Dev nD) (b : Ref sig .tc) : Buf (Elt F) ((c : Thread nD τ).loc b) := StableHlo.after hostOps1 (Wt m c) (Proc.devRef .tc b)

theorem bigSepL5 {M : Type} [URA M] {I : Type} (Φ : I → sProp M) (a b c d e : I) :
    bigSepL [a, b, c, d, e] Φ = iprop(Φ a ∗ Φ b ∗ Φ c ∗ Φ d ∗ Φ e) := rfl

set_option backward.isDefEq.respectTransparency.types false in
/-- The proof data's arrays, window by window: the embedding array twice, at complementary halves; the label column, the
    label row and the two results whole. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_arg0) ↦{fullShare.left} Fa 0) ∗ (((c.tc : Thread nD τ).loc main_arg0) ↦{fullShare.right} Fa 1)
          ∗ (((c.tc : Thread nD τ).loc main_v0) ↦{fullShare} Fa 2) ∗ (((c.tc : Thread nD τ).loc main_v1) ↦{fullShare} Fa 3)
          ∗ (((c.tc : Thread nD τ).loc main_v2_0) ↦{fullShare} Fa 4) ∗ (((c.tc : Thread nD τ).loc main_v2_1) ↦{fullShare} Fa 5)) := by
  unfold Pipeline.Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind the six windows' arrays make the proof data's arrays at entry: the embedding array's
    points-to is split in two halves, one per window that reads it. -/
theorem hsplit (c : Dev nD) : (arrBufs (Ix := Unit) (Name := ℕ) (U := UR sig nD τ) (Lvl := ℕ) spec0 c (V m c) : sProp 𝕄)
    ⊢ (dats m 0 c).arrays ((dats m 0 c).arrAt · 0) := by
  rw [arrays_chain]
  unfold Pipeline.arrBufs
  rw [bigSep_eq_bigSepL_of_eq [main_arg0, main_v0, main_v1, main_v2_0, main_v2_1] (by decide) (by decide), bigSepL5]
  iintro ⟨H0, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  iexact H5

theorem hX (c : Dev nD) : (unscopedRestP (Ix := Unit) (Name := ℕ) (U := UR sig nD τ) (Lvl := ℕ) ((cfgs 0).toPCfg (Val := Elt F)).pre spec0 c (V m c) : sProp 𝕄)
    ⊢ iprop(emp ∗ unscopedRest (Ix := Unit) (Name := ℕ) (U := UR sig nD τ) (Lvl := ℕ) spec0 c (V m c)) := by
  rw [Pipeline.unscopedRestP_none]
  iintro H
  isplitr; · iempintro
  iexact H

theorem hin (c : Dev nD) : (iprop(emp ∗ Pipeline.prefHeld (Ix := Unit) (Name := ℕ) (U := UR sig nD τ) (Lvl := ℕ) ((cfgs 0).toPCfg (Val := Elt F)).pre c (fun _ => fullShare.right) (((cfgs 0).toPCfg_adm (Val := Elt F)).1)
      ∗ scopedRest (Ix := Unit) (Name := ℕ) (U := UR sig nD τ) (Lvl := ℕ) (Val := Elt F) spec0 c) : sProp 𝕄) ⊢ (dats m 0 c).Φ 0 := by
  show _ ⊢ scopedRest (Ix := Unit) (Name := ℕ) (U := UR sig nD τ) (Lvl := ℕ) (Val := Elt F) spec0 c
  iintro ⟨-, -, HR⟩
  iexact HR

theorem hout (c : Dev nD) : ((dats m 0 c).Φ (Fin.last cfg0.N) : sProp 𝕄) ⊢ iprop(emp ∗ scopedRest (Ix := Unit) (Name := ℕ) (U := UR sig nD τ) (Lvl := ℕ) (Val := Elt F) spec0 c) := by
  show scopedRest (Ix := Unit) (Name := ℕ) (U := UR sig nD τ) (Lvl := ℕ) (Val := Elt F) spec0 c ⊢ _
  iintro HR
  isplitr; · iempintro
  iexact HR

theorem hY (c : Dev nD) (s' : Phys nD τ sig (Elt F)) :
    iprop(emp ∗ unscopedRest (Ix := Unit) (Name := ℕ) (U := UR sig nD τ) (Lvl := ℕ) spec0 c (Wfin m c) ∗ SI s')
      ⊢ |={Set.univ}=> iprop(⌜∀ b ∈ Pipeline.restRefs sig spec0, s'.mem.mem ((c.tc : Thread nD τ).loc b) = Wfin m c b⌝ ∗ (SI s' : sProp 𝕄)) := by
  iintro ⟨-, HU, HSI⟩
  unfold Pipeline.unscopedRest
  imodintro
  iapply (pointsTo_read_all (Pipeline.restRefs sig spec0) (fun b => (c.tc : Thread nD τ).loc b) (Wfin m c) s')
  isplitl [HU] <;> iassumption

/-! ## The host lines after the region -/

/-- The five buffers those lines touch: the two results of the region and the three they write. -/
def tailSet : Finset (DevRef τ sig) :=
  {(Proc.devRef (τ := τ) .tc main_v2_0 : DevRef τ sig), (Proc.devRef (τ := τ) .tc main_v2_1 : DevRef τ sig), (Proc.devRef (τ := τ) .tc main_v3 : DevRef τ sig), (Proc.devRef (τ := τ) .tc main_v4 : DevRef τ sig), (Proc.devRef (τ := τ) .tc main_v5 : DevRef τ sig)}

theorem tail_sub : ∀ ops ∈ ([hostOps1] : List (List (HloOp τ sig (Elt F)))), ∀ op ∈ ops, op.bufs ⊆ tailSet := by
  intro ops hops op hop
  simp only [List.mem_cons, List.mem_nil_iff, List.not_mem_nil, or_false] at hops
  subst hops
  simp only [List.mem_cons, List.mem_nil_iff, List.not_mem_nil, or_false] at hop
  rcases hop with rfl | rfl | rfl
  · rw [StableHlo.reshape_bufs]; simp only [tailSet, Finset.insert_subset_iff, Finset.singleton_subset_iff, Finset.mem_insert, Finset.mem_singleton, eq_self_iff_true, true_or, or_true, and_self]
  · rw [StableHlo.reshape_bufs]; simp only [tailSet, Finset.insert_subset_iff, Finset.singleton_subset_iff, Finset.mem_insert, Finset.mem_singleton, eq_self_iff_true, true_or, or_true, and_self]
  · rw [StableHlo.binary_bufs]; simp only [tailSet, Finset.insert_subset_iff, Finset.singleton_subset_iff, Finset.mem_insert, Finset.mem_singleton, eq_self_iff_true, true_or, or_true, and_self]

theorem tail_fresh : ∀ ops ∈ ([hostOps1] : List (List (HloOp τ sig (Elt F)))), ∀ op ∈ ops, op.fresh = ∅ := by
  intro ops hops op hop
  simp only [List.mem_cons, List.mem_nil_iff, List.not_mem_nil, or_false] at hops
  subst hops
  simp only [List.mem_cons, List.mem_nil_iff, List.not_mem_nil, or_false] at hop
  rcases hop with rfl | rfl | rfl <;> rfl

set_option backward.isDefEq.respectTransparency.types false in
/-- Those five, one by one. -/
theorem held_tail (c : Dev nD) (W : Valuation τ sig (Elt F)) :
    (StableHlo.held (c.tc : Thread nD τ) tailSet W : sProp 𝕄)
      = iprop((((c.tc : Thread nD τ).loc main_v2_0) ↦{fullShare} W (Proc.devRef (τ := τ) .tc main_v2_0 : DevRef τ sig)) ∗ (((c.tc : Thread nD τ).loc main_v2_1) ↦{fullShare} W (Proc.devRef (τ := τ) .tc main_v2_1 : DevRef τ sig))
          ∗ (((c.tc : Thread nD τ).loc main_v3) ↦{fullShare} W (Proc.devRef (τ := τ) .tc main_v3 : DevRef τ sig)) ∗ (((c.tc : Thread nD τ).loc main_v4) ↦{fullShare} W (Proc.devRef (τ := τ) .tc main_v4 : DevRef τ sig))
          ∗ (((c.tc : Thread nD τ).loc main_v5) ↦{fullShare} W (Proc.devRef (τ := τ) .tc main_v5 : DevRef τ sig))) := by
  unfold StableHlo.held tailSet
  rw [bigSep_eq_bigSepL_of_eq [(Proc.devRef (τ := τ) .tc main_v2_0 : DevRef τ sig), (Proc.devRef (τ := τ) .tc main_v2_1 : DevRef τ sig), (Proc.devRef (τ := τ) .tc main_v3 : DevRef τ sig), (Proc.devRef (τ := τ) .tc main_v4 : DevRef τ sig), (Proc.devRef (τ := τ) .tc main_v5 : DevRef τ sig)] (by decide) (by decide), bigSepL5]

theorem Wt_v2_0 (c : Dev nD) : Wt m c (Proc.devRef (τ := τ) .tc main_v2_0 : DevRef τ sig) = (dats m 0 c).arrAt 4 cfg0.N := by
  unfold Wt; rw [Function.update_of_ne (StableHlo.devRef_ne_of_ne (by decide)), Function.update_self]
theorem Wt_v2_1 (c : Dev nD) : Wt m c (Proc.devRef (τ := τ) .tc main_v2_1 : DevRef τ sig) = (dats m 0 c).arrAt 5 cfg0.N := by
  unfold Wt; rw [Function.update_self]
theorem Wt_other (c : Dev nD) (r : Ref sig .tc) (h0 : r ≠ main_v2_0) (h1 : r ≠ main_v2_1) : Wt m c (Proc.devRef (τ := τ) .tc r : DevRef τ sig) = V m c r := by
  unfold Wt; rw [Function.update_of_ne (StableHlo.devRef_ne_of_ne h1), Function.update_of_ne (StableHlo.devRef_ne_of_ne h0)]

/-- The lines after the region write three buffers and no other. -/
theorem tail_writes : (hostOps1 : List (HloOp τ sig (Elt F))).Forall fun op => op.writes ⊆ (([main_v3, main_v4, main_v5] : List (Ref sig .tc)).map (Proc.devRef (τ := τ) .tc)).toFinset := by
  simp only [List.Forall]
  refine ⟨?_, ?_, ?_⟩
  · rw [StableHlo.reshape_writes]; simp
  · rw [StableHlo.reshape_writes]; simp
  · rw [StableHlo.binary_writes]; simp

theorem Wfin_keep (c : Dev nD) (r : Ref sig .tc) (hr : r ∉ ([main_v3, main_v4, main_v5] : List (Ref sig .tc))) :
    Wfin m c r = Wt m c (Proc.devRef (τ := τ) .tc r : DevRef τ sig) :=
  StableHlo.after_of_writes_sub hostOps1 (Wt m c) tail_writes hr

set_option backward.isDefEq.respectTransparency.types false in
/-- After the host lines: the two results are still what the region wrote back (the lines do not write them), the
    labels are untouched, and the three buffers the lines wrote hold their results — the arrays and the bypassing
    buffers as the launch's continuation wants them. -/
theorem tail_close (c : Dev nD) :
    iprop((((c.tc : Thread nD τ).loc main_arg0) ↦{fullShare.left} (dats m 0 c).arrAt 0 cfg0.N) ∗ (((c.tc : Thread nD τ).loc main_arg0) ↦{fullShare.right} (dats m 0 c).arrAt 1 cfg0.N)
        ∗ (((c.tc : Thread nD τ).loc main_v0) ↦{fullShare} (dats m 0 c).arrAt 2 cfg0.N) ∗ (((c.tc : Thread nD τ).loc main_v1) ↦{fullShare} (dats m 0 c).arrAt 3 cfg0.N)
        ∗ (((c.tc : Thread nD τ).loc main_arg1) ↦{fullShare} V m c main_arg1)
        ∗ (StableHlo.held (c.tc : Thread nD τ) tailSet (StableHlo.after [hostOps1].flatten (Wt m c)) : sProp 𝕄))
      ⊢ iprop(((((c.tc : Thread nD τ).loc main_arg0) ↦{fullShare.left} (dats m 0 c).arrAt 0 cfg0.N) ∗ (((c.tc : Thread nD τ).loc main_arg0) ↦{fullShare.right} (dats m 0 c).arrAt 1 cfg0.N)
          ∗ (((c.tc : Thread nD τ).loc main_v0) ↦{fullShare} (dats m 0 c).arrAt 2 cfg0.N) ∗ (((c.tc : Thread nD τ).loc main_v1) ↦{fullShare} (dats m 0 c).arrAt 3 cfg0.N)
          ∗ (((c.tc : Thread nD τ).loc main_v2_0) ↦{fullShare} (dats m 0 c).arrAt 4 cfg0.N) ∗ (((c.tc : Thread nD τ).loc main_v2_1) ↦{fullShare} (dats m 0 c).arrAt 5 cfg0.N))
        ∗ ((((c.tc : Thread nD τ).loc main_arg1) ↦{fullShare} Wfin m c main_arg1) ∗ (((c.tc : Thread nD τ).loc main_v3) ↦{fullShare} Wfin m c main_v3)
          ∗ (((c.tc : Thread nD τ).loc main_v4) ↦{fullShare} Wfin m c main_v4) ∗ (((c.tc : Thread nD τ).loc main_v5) ↦{fullShare} Wfin m c main_v5))) := by
  rw [held_tail]
  have e0 : StableHlo.after [hostOps1].flatten (Wt m c) (Proc.devRef (τ := τ) .tc main_v2_0 : DevRef τ sig) = (dats m 0 c).arrAt 4 cfg0.N :=
    (Wfin_keep m c main_v2_0 (by decide)).trans (Wt_v2_0 m c)
  have e1 : StableHlo.after [hostOps1].flatten (Wt m c) (Proc.devRef (τ := τ) .tc main_v2_1 : DevRef τ sig) = (dats m 0 c).arrAt 5 cfg0.N :=
    (Wfin_keep m c main_v2_1 (by decide)).trans (Wt_v2_1 m c)
  have e2 : Wfin m c main_arg1 = V m c main_arg1 :=
    (Wfin_keep m c main_arg1 (by decide)).trans (Wt_other m c main_arg1 (by decide) (by decide))
  rw [e0, e1, e2]
  iintro ⟨A0l, A0r, A2, A3, R1, A4, A5, R3, R4, R5⟩
  isplitl [A0l A0r A2 A3 A4 A5]
  · isplitl [A0l]; · iexact A0l
    isplitl [A0r]; · iexact A0r
    isplitl [A2]; · iexact A2
    isplitl [A3]; · iexact A3
    isplitl [A4]; · iexact A4
    iexact A5
  isplitl [R1]; · iexact R1
  isplitl [R3]; · iexact R3
  isplitl [R4]; · iexact R4
  iexact R5

theorem htail (c : Dev nD) (Q' : PUnit → sProp 𝕄) :
    iprop((iprop((dats m 0 c).arrays ((dats m 0 c).arrAt · cfg0.N) ∗ unscopedRest (Ix := Unit) (Name := ℕ) (U := UR sig nD τ) (Lvl := ℕ) spec0 c (Wfin m c)) -∗ Q' ⟨⟩)
        ∗ boundary (c.tc : Thread nD τ) ∗ (dats m 0 c).arrays ((dats m 0 c).arrAt · cfg0.N) ∗ unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain, unscopedRest0_eq, unscopedRest0_eq]
  iintro ⟨Hk, Hb, ⟨A0l, A0r, A2, A3, A4, A5⟩, ⟨R1, R3, R4, R5⟩⟩
  rw [← List.append_nil [StableHlo.seq hostOps1]]
  iapply (Pipeline.wp_seqs_then (fun q => (cfgs q).toPCfg (Val := Elt F)) defs₀ Variants.none c tailSet [] [hostOps1] tail_sub tail_fresh (Wt m c)) $$ [Hb A4 A5 R3 R4 R5]
  · isplitl [Hb]; · iexact Hb
    rw [held_tail, Wt_v2_0, Wt_v2_1, Wt_other m c main_v3 (by decide) (by decide), Wt_other m c main_v4 (by decide) (by decide),
      Wt_other m c main_v5 (by decide) (by decide)]
    isplitl [A4]; · iexact A4
    isplitl [A5]; · iexact A5
    isplitl [R3]; · iexact R3
    isplitl [R4]; · iexact R4
    iexact R5
  iintro ⟨-, Hh⟩
  rw [Pipeline.chain_nil, wp_pure]
  imodintro
  iapply Hk
  iapply (tail_close m c)
  isplitl [A0l]; · iexact A0l
  isplitl [A0r]; · iexact A0r
  isplitl [A2]; · iexact A2
  isplitl [A3]; · iexact A3
  isplitl [R1]; · iexact R1
  iexact Hh

set_option backward.isDefEq.respectTransparency.types false in
theorem run_main (Q : PUnit × MemSt nD τ sig (Elt F) → Prop)
    (hQ : ∀ s : MemSt nD τ sig (Elt F),
      (∀ c : Dev nD, (∀ w, s.mem (((cfg0).spec w).arr.view.loc (c.tc : Thread nD τ)) = (dats m 0 c).arrAt w (cfg0).N)
        ∧ (∀ b ∈ Pipeline.restRefs sig spec0, s.mem ((c.tc : Thread nD τ).loc b) = Wfin m c b)) → Q (⟨⟩, s)) :
    θ_run defs (onTc (τ := τ) (main (F := F))) (s₀ m ρ) Q := by
  classical
  exact Pipeline.θ_run_region_noSem_pf_tail (fun q => (cfgs q).toPCfg (Val := Elt F)) (fun q => (cfgs q).toPCfg_adm) (dats m) () cellOf_inj 0 winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (Wfin m c))
    (hX := hX m) (hin := hin m) (hout := hout m)
    (htail := htail m)
    (QY := fun c s => ∀ b ∈ Pipeline.restRefs sig spec0, s.mem ((c.tc : Thread nD τ).loc b) = Wfin m c b)
    (hY := hY m)
    (hQ := fun s h => hQ s fun c => ⟨(h c).1, (h c).2.2⟩)

/-! ## What the run leaves -/

/-- The two reshapes before the region write the label column and the label row and nothing else. -/
theorem head_writes : (hostOps0 : List (HloOp τ sig (Elt F))).Forall fun op => op.writes ⊆ (([main_v0, main_v1] : List (Ref sig .tc)).map (Proc.devRef (τ := τ) .tc)).toFinset := by
  simp only [List.Forall]
  refine ⟨?_, ?_⟩
  · rw [StableHlo.reshape_writes]; simp
  · rw [StableHlo.reshape_writes]; simp

/-- A buffer they do not write is, when the region is entered, as launched. -/
theorem V_launch (c : Dev nD) (r : Ref sig .tc) (hr : r ∉ ([main_v0, main_v1] : List (Ref sig .tc))) :
    V m c r = m ((c.tc : Thread nD τ).loc r) :=
  StableHlo.after_of_writes_sub hostOps0 (fun b => m (c, b)) head_writes hr

set_option backward.isDefEq.respectTransparency.types false in
/-- THE RUN: every weakly fair execution of @main terminates without a fault; the result buffer ends at the quotient the
    host lines compute from the two accumulated results (`Wfin … main_v5`) and both arguments end as launched. At any `F`. -/
theorem run_all : θ_run defs (onTc (τ := τ) (main (F := F))) ⟨m, fun _ => 0, ρ⟩ (fun r => ∀ c : Dev nD,
      r.2.mem ((c.tc : Thread nD τ).loc main_v5) = Wfin m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ _ fun s h c =>
    ⟨(h c).2 main_v5 (Pipeline.mem_restRefs_of main_v5 rfl (by decide)),
     ((h c).1 0).trans (((dats m 0 c).arrAt_in 0 rfl _).trans ((A_eq m c 0).trans (V_launch m c main_arg0 (by decide)))),
     ((h c).2 main_arg1 (Pipeline.mem_restRefs_of main_arg1 rfl (by decide))).trans
       ((Wfin_keep m c main_arg1 (by decide)).trans ((Wt_other m c main_arg1 (by decide) (by decide)).trans (V_launch m c main_arg1 (by decide))))⟩

/-- The frame: @main runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.Kernel.Hand

end
-- ==== Proof.KI.RunLater.lean ====
/-
  The kernel's body on whole staging buffers, at a grid point other than the first: the conditional on "both grid
  coordinates are zero" is not taken; the four input buffers are read and left as found; the first accumulator gains the
  tile's masked sum of similarities, the second the tile's count of masked-in pairs. At any instance of the float operations.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional, read off the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other. -/
theorem hcond0 : ∀ t : Fin cfg0.N, cond0 (grid0.coords t) ↔ t.val = 0 :=
  (by decide +kernel : ∀ t : Fin grid0.N, cond0 (grid0.coords t) ↔ t.val = 0)

/-- The offset of a whole-buffer rectangle is zero on both axes. -/
theorem hz2 : (![0, 0] : Fin 2 → Nat) = fun _ => 0 := by
  funext a; fin_cases a <;> rfl

set_option maxHeartbeats 1000000 in
/-- At a grid point other than the first the body leaves its four input buffers as it found them and adds the
    tile's masked sum of similarities to the first accumulator and the tile's count of masked pairs to the second. -/
theorem run_later (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : ¬ cond0 i)
    (x0 x1 : Vec F S512x512 .f32) (x2 : Vec F S512x1 .i32) (x3 : Vec F S1x512 .i32) (a4 a5 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay6 x0 x1) (k0_pay7 i x2 x3) a4)
            ∗ owns (c : Thread nD τ) arg7 fullShare (k0_pay3 (k0_pay7 i x2 x3) a5)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (View.cover_of_tiled [⟨_, _⟩] S1x1.size (by rfl)), View.canon_unit_zero hz2]
    simp only [View.readAt_eq_ld, View.ld_unit_zero (S := S512x512) hz2, View.ld_unit_zero (S := S512x1) hz2,
      View.ld_unit_zero (S := S1x512) hz2, View.ld_unit_zero (S := S1x1) hz2]
  · iexists _; isplitr
    swap; · iexact H5
    ipureintro
    rw [View.read_writes_eq_canon _ _ _ (View.cover_of_tiled [⟨_, _⟩] S1x1.size (by rfl)), View.canon_unit_zero hz2]
    simp only [View.readAt_eq_ld, View.ld_unit_zero (S := S512x512) hz2, View.ld_unit_zero (S := S512x1) hz2,
      View.ld_unit_zero (S := S1x512) hz2, View.ld_unit_zero (S := S1x1) hz2]

end Cert.KernelIdeal.Hand

end
-- ==== Proof.KI.RunFirst.lean ====
/-
  The kernel's body at the first grid point: the conditional is taken, both accumulators are first set to zero whatever they
  held, and then gain the first tile's contribution as at any other point. At any instance of the float operations.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.KI.RunLater

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first grid point the body first stores zero into both accumulators, whatever they held, and then adds the
    tile's masked sum of similarities to the first and the tile's count of masked pairs to the second; the four
    input buffers are left as found. -/
theorem run_first (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc : cond0 i)
    (x0 x1 : Vec F S512x512 .f32) (x2 : Vec F S512x1 .i32) (x3 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay6 x0 x1) (k0_pay7 i x2 x3) (k0_pay4 (F := F)))
            ∗ owns (c : Thread nD τ) arg7 fullShare (k0_pay3 (k0_pay7 i x2 x3) (k0_pay5 (F := F)))) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  ·
    iexists _; isplitr
    swap; · iexact H4
    ipureintro
    sl_unfold_words
    rw [View.read_writes_eq_canon _ _ _ (fun y => ⟨_, List.mem_cons.2 (Or.inl rfl), View.mem_set_unit_zero (S := S1x1) hz2 inb_S1x1_S1x1_0_0 y⟩), View.canon_cons_unit_zero hz2]
    simp only [View.readCov_unit_zero (S := S1x1) _ hz2, View.readAt_eq_ld, View.ld_unit_zero (S := S512x512) hz2, View.ld_unit_zero (S := S512x1) hz2,
      View.ld_unit_zero (S := S1x512) hz2, View.ld_unit_zero (S := S1x1) hz2]
  ·
    iexists _; isplitr
    swap; · iexact H5
    ipureintro
    sl_unfold_words
    rw [View.read_writes_eq_canon _ _ _ (fun y => ⟨_, List.mem_cons.2 (Or.inl rfl), View.mem_set_unit_zero (S := S1x1) hz2 inb_S1x1_S1x1_0_0 y⟩), View.canon_cons_unit_zero hz2]
    simp only [View.readCov_unit_zero (S := S1x1) _ hz2, View.readAt_eq_ld, View.ld_unit_zero (S := S512x512) hz2, View.ld_unit_zero (S := S512x1) hz2,
      View.ld_unit_zero (S := S1x512) hz2, View.ld_unit_zero (S := S1x1) hz2]

end Cert.KernelIdeal.Hand

end
-- ==== Proof.KI.Data.lean ====
/-
  What every staging buffer holds after the body at every grid point, and the body's obligation there.
  An input window's buffer holds its block of the array (fetched at this point, or still there from the point that fetched
  it: the block index has not moved). The two scalar results are accumulators: after point n each holds zero plus the
  contributions of points 0 … n in grid order, defined by recursion on n; they are written back once, after the last point.
  The two windows that read the embedding array hold complementary halves of it.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the two reshapes of the label vector
    (into a column and into a row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two accumulators, point by point -/

/-- What one grid point adds to the first accumulator `a`: the sum, over the tile of rows `i` and columns `j` the point
    names, of the similarity of row and column where the pair is masked in. -/
def tile4 (c : Dev nD) (t : Fin cfg0.N) (a : Vec F S1x1 .f32) : Vec F S1x1 .f32 :=
  k0_pay2 (k0_pay6 (iblk m c 0 t) (iblk m c 1 t)) (k0_pay7 (grid0.coords t) (iblk m c 2 t) (iblk m c 3 t)) a
/-- What it adds to the second: the number of masked-in pairs of the tile. -/
def tile5 (c : Dev nD) (t : Fin cfg0.N) (a : Vec F S1x1 .f32) : Vec F S1x1 .f32 :=
  k0_pay3 (k0_pay7 (grid0.coords t) (iblk m c 2 t) (iblk m c 3 t)) a

/-- The grid point of a number (read modulo the number of points). -/
def pt (n : Nat) : Fin cfg0.N := ⟨n % cfg0.N, Nat.mod_lt _ (by decide)⟩
theorem pt_val (t : Fin cfg0.N) : pt t.val = t := Fin.ext (Nat.mod_eq_of_lt t.isLt)

/-- The first accumulator after point `n`: zero plus the contributions of the points up to `n`, in grid order. -/
def acc4 (c : Dev nD) : Nat → Vec F S1x1 .f32
  | 0 => tile4 m c (pt 0) (k0_pay4 (F := F))
  | n + 1 => tile4 m c (pt (n + 1)) (acc4 c n)
/-- The second accumulator after point `n`. -/
def acc5 (c : Dev nD) : Nat → Vec F S1x1 .f32
  | 0 => tile5 m c (pt 0) (k0_pay5 (F := F))
  | n + 1 => tile5 m c (pt (n + 1)) (acc5 c n)

theorem acc4_first (c : Dev nD) (t : Fin cfg0.N) (h : t.val = 0) : acc4 m c t.val = tile4 m c t (k0_pay4 (F := F)) := by
  rw [h]; show tile4 m c (pt 0) _ = _; rw [← h, pt_val]
theorem acc5_first (c : Dev nD) (t : Fin cfg0.N) (h : t.val = 0) : acc5 m c t.val = tile5 m c t (k0_pay5 (F := F)) := by
  rw [h]; show tile5 m c (pt 0) _ = _; rw [← h, pt_val]
theorem acc4_later (c : Dev nD) (t : Fin cfg0.N) (h : t.val ≠ 0) : acc4 m c t.val = tile4 m c t (acc4 m c (t.val - 1)) := by
  obtain ⟨n, hn⟩ := Nat.exists_eq_succ_of_ne_zero h
  rw [hn]; show tile4 m c (pt (n + 1)) (acc4 m c n) = _
  rw [show n + 1 = t.val from hn.symm, pt_val]; rfl
theorem acc5_later (c : Dev nD) (t : Fin cfg0.N) (h : t.val ≠ 0) : acc5 m c t.val = tile5 m c t (acc5 m c (t.val - 1)) := by
  obtain ⟨n, hn⟩ := Nat.exists_eq_succ_of_ne_zero h
  rw [hn]; show tile5 m c (pt (n + 1)) (acc5 m c n) = _
  rw [show n + 1 = t.val from hn.symm, pt_val]; rfl

/-! ## The proof data -/

/-- The proof data of the pipeline on core `c`: the arrays as the region finds them; after the body at point `t` each
    input's staging buffer at its block and the two outputs' at the accumulators; the invariant the scoped buffers no window stages (there are none); nothing owed. The two
    windows that read the embedding array hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc4 m c t.val
    | ⟨5, _⟩ => acc5 m c t.val
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = acc4 m c t.val := by dsimp only [dats]
theorem after0_5 (c : Dev nD) (t : Fin cfg0.N) : (dats m 0 c).after 5 t = acc5 m c t.val := by dsimp only [dats]

/-- An input's current staging buffer holds its block at every point, fetched there or not: where it is not fetched the
    block index has not moved since the point that fetched it. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Neither output is written back before the last point. -/
theorem noflush4 (t : Fin cfg0.N) (ht : t.val ≠ 0) : (cfg0.win 4).flush ⟨t.val - 1, Nat.lt_of_le_of_lt (Nat.sub_le _ _) t.isLt⟩ = false := by
  rw [Bool.eq_false_iff]; intro h
  have h1 := (flush0_4 _).1 h
  have h2 : t.val < 256 := t.isLt
  simp only at h1; omega
theorem noflush5 (t : Fin cfg0.N) (ht : t.val ≠ 0) : (cfg0.win 5).flush ⟨t.val - 1, Nat.lt_of_le_of_lt (Nat.sub_le _ _) t.isLt⟩ = false := by
  rw [Bool.eq_false_iff]; intro h
  have h1 := (flush0_5 _).1 h
  have h2 : t.val < 256 := t.isLt
  simp only at h1; omega

/-- At the first point an output's staging buffer holds anything; -/
theorem before4_first (c : Dev nD) (t : Fin cfg0.N) (h : t.val = 0) (d) : (dats m 0 c).before 4 t d = d :=
  (dats m 0 c).before_out_reset 4 rfl t (.inl h) d
theorem before5_first (c : Dev nD) (t : Fin cfg0.N) (h : t.val = 0) (d) : (dats m 0 c).before 5 t d = d :=
  (dats m 0 c).before_out_reset 5 rfl t (.inl h) d
/-- at a later point, the accumulator the point before left. -/
theorem before4_later (c : Dev nD) (t : Fin cfg0.N) (h : t.val ≠ 0) (d) : (dats m 0 c).before 4 t d = acc4 m c (t.val - 1) :=
  ((dats m 0 c).before_out_kept 4 rfl t h (noflush4 t h) (fun _ => rfl) (fun _ _ => rfl) d).trans (after0_4 m c _)
theorem before5_later (c : Dev nD) (t : Fin cfg0.N) (h : t.val ≠ 0) (d) : (dats m 0 c).before 5 t d = acc5 m c (t.val - 1) :=
  ((dats m 0 c).before_out_kept 5 rfl t h (noflush5 t h) (fun _ => rfl) (fun _ _ => rfl) d).trans (after0_5 m c _)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks; at the first point the accumulators are reset and the
    tile added, at a later one the tile is added to what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val = 0
  · simp only [before4_first m c t h0, before5_first m c t h0]
    rw [acc4_first m c t h0, acc5_first m c t h0]
    unfold tile4 tile5
    iintro ⟨HΦ, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ ((hcond0 t).2 h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before4_later m c t h0, before5_later m c t h0]
    rw [acc4_later m c t h0, acc5_later m c t h0]
    unfold tile4 tile5
    iintro ⟨HΦ, Ho, ⟨%d0, H0⟩, ⟨%d1, H1⟩, ⟨%d2, H2⟩, ⟨%d3, H3⟩, ⟨%d4, H4⟩, ⟨%d5, H5⟩⟩
    iapply (run_later c Set.univ (grid0.coords t) _ _ _ _ _ _ _ _ _ _ _ _ (fun h => h0 ((hcond0 t).1 h)) (iblk m c 0 t) (iblk m c 1 t) (iblk m c 2 t) (iblk m c 3 t)
      (acc4 m c (t.val - 1)) (acc5 m c (t.val - 1)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of @main: the two reshapes of the label vector, the region over the 256 grid points, and the three host lines
  that read the two 1 × 1 results as scalars and divide.
  The embedding array is handed to the region through two windows, so its one points-to is split into two halves at entry,
  one per window (both windows only read). After the region the host lines run over the five buffers they touch; the two
  results are not written by them, the labels and the embedding array are not touched. The run ends with the result buffer
  at the quotient the host lines compute and both arguments as launched — at any instance of the float operations, which
  is the frame of both printings of the kernel and the first half of the value claim.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrBufs unscopedRest unscopedRestP scopedRest arrRef)

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes of the labels, the region, and the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The buffers when the host lines after the region start: the two results at what the region wrote back, every other
    buffer as the region found it. -/
def Wt (c : Dev nD) : Valuation τ sig (Elt F) :=
  Function.update (Function.update (V0 m c) (Proc.devRef .tc main_v2_0) ((dats m 0 c).arrAt 4 cfg0.N)) (Proc.devRef .tc main_v2_1) ((dats m 0 c).arrAt 5 cfg0.N)
/-- The buffers at the end. -/
def Wfin (c : Dev nD) (b : Ref sig .tc) : Buf (Elt F) ((c : Thread nD τ).loc b) := StableHlo.after hostOps1 (Wt m c) (Proc.devRef .tc b)

theorem bigSepL5 {M : Type} [URA M] {I : Type} (Φ : I → sProp M) (a b c d e : I) :
    bigSepL [a, b, c, d, e] Φ = iprop(Φ a ∗ Φ b ∗ Φ c ∗ Φ d ∗ Φ e) := rfl

set_option backward.isDefEq.respectTransparency.types false in
/-- The proof data's arrays, window by window: the embedding array twice, at complementary halves; the label column, the
    label row and the two results whole. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_arg0) ↦{fullShare.left} Fa 0) ∗ (((c.tc : Thread nD τ).loc main_arg0) ↦{fullShare.right} Fa 1)
          ∗ (((c.tc : Thread nD τ).loc main_v0) ↦{fullShare} Fa 2) ∗ (((c.tc : Thread nD τ).loc main_v1) ↦{fullShare} Fa 3)
          ∗ (((c.tc : Thread nD τ).loc main_v2_0) ↦{fullShare} Fa 4) ∗ (((c.tc : Thread nD τ).loc main_v2_1) ↦{fullShare} Fa 5)) := by
  unfold Pipeline.Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind the six windows' arrays make the proof data's arrays at entry: the embedding array's
    points-to is split in two halves, one per window that reads it. -/
theorem hsplit (c : Dev nD) : (arrBufs (Ix := Unit) (Name := ℕ) (U := UR sig nD τ) (Lvl := ℕ) spec0 c (V m c) : sProp 𝕄)
    ⊢ (dats m 0 c).arrays ((dats m 0 c).arrAt · 0) := by
  rw [arrays_chain]
  unfold Pipeline.arrBufs
  rw [bigSep_eq_bigSepL_of_eq [main_arg0, main_v0, main_v1, main_v2_0, main_v2_1] (by decide) (by decide), bigSepL5]
  iintro ⟨H0, H2, H3, H4, H5⟩
  ihave H0' := (pointsTo_share (PosShare.mem_left_op_right fullShare)).1 $$ H0
  icases H0' with ⟨H0l, H0r⟩
  isplitl [H0l]; · iexact H0l
  isplitl [H0r]; · iexact H0r
  isplitl [H2]; · iexact H2
  isplitl [H3]; · iexact H3
  isplitl [H4]; · iexact H4
  iexact H5

theorem hX (c : Dev nD) : (unscopedRestP (Ix := Unit) (Name := ℕ) (U := UR sig nD τ) (Lvl := ℕ) ((cfgs 0).toPCfg (Val := Elt F)).pre spec0 c (V m c) : sProp 𝕄)
    ⊢ iprop(emp ∗ unscopedRest (Ix := Unit) (Name := ℕ) (U := UR sig nD τ) (Lvl := ℕ) spec0 c (V m c)) := by
  rw [Pipeline.unscopedRestP_none]
  iintro H
  isplitr; · iempintro
  iexact H

theorem hin (c : Dev nD) : (iprop(emp ∗ Pipeline.prefHeld (Ix := Unit) (Name := ℕ) (U := UR sig nD τ) (Lvl := ℕ) ((cfgs 0).toPCfg (Val := Elt F)).pre c (fun _ => fullShare.right) (((cfgs 0).toPCfg_adm (Val := Elt F)).1)
      ∗ scopedRest (Ix := Unit) (Name := ℕ) (U := UR sig nD τ) (Lvl := ℕ) (Val := Elt F) spec0 c) : sProp 𝕄) ⊢ (dats m 0 c).Φ 0 := by
  show _ ⊢ scopedRest (Ix := Unit) (Name := ℕ) (U := UR sig nD τ) (Lvl := ℕ) (Val := Elt F) spec0 c
  iintro ⟨-, -, HR⟩
  iexact HR

theorem hout (c : Dev nD) : ((dats m 0 c).Φ (Fin.last cfg0.N) : sProp 𝕄) ⊢ iprop(emp ∗ scopedRest (Ix := Unit) (Name := ℕ) (U := UR sig nD τ) (Lvl := ℕ) (Val := Elt F) spec0 c) := by
  show scopedRest (Ix := Unit) (Name := ℕ) (U := UR sig nD τ) (Lvl := ℕ) (Val := Elt F) spec0 c ⊢ _
  iintro HR
  isplitr; · iempintro
  iexact HR

theorem hY (c : Dev nD) (s' : Phys nD τ sig (Elt F)) :
    iprop(emp ∗ unscopedRest (Ix := Unit) (Name := ℕ) (U := UR sig nD τ) (Lvl := ℕ) spec0 c (Wfin m c) ∗ SI s')
      ⊢ |={Set.univ}=> iprop(⌜∀ b ∈ Pipeline.restRefs sig spec0, s'.mem.mem ((c.tc : Thread nD τ).loc b) = Wfin m c b⌝ ∗ (SI s' : sProp 𝕄)) := by
  iintro ⟨-, HU, HSI⟩
  unfold Pipeline.unscopedRest
  imodintro
  iapply (pointsTo_read_all (Pipeline.restRefs sig spec0) (fun b => (c.tc : Thread nD τ).loc b) (Wfin m c) s')
  isplitl [HU] <;> iassumption

/-! ## The host lines after the region -/

/-- The five buffers those lines touch: the two results of the region and the three they write. -/
def tailSet : Finset (DevRef τ sig) :=
  {(Proc.devRef (τ := τ) .tc main_v2_0 : DevRef τ sig), (Proc.devRef (τ := τ) .tc main_v2_1 : DevRef τ sig), (Proc.devRef (τ := τ) .tc main_v3 : DevRef τ sig), (Proc.devRef (τ := τ) .tc main_v4 : DevRef τ sig), (Proc.devRef (τ := τ) .tc main_v5 : DevRef τ sig)}

theorem tail_sub : ∀ ops ∈ ([hostOps1] : List (List (HloOp τ sig (Elt F)))), ∀ op ∈ ops, op.bufs ⊆ tailSet := by
  intro ops hops op hop
  simp only [List.mem_cons, List.mem_nil_iff, List.not_mem_nil, or_false] at hops
  subst hops
  simp only [List.mem_cons, List.mem_nil_iff, List.not_mem_nil, or_false] at hop
  rcases hop with rfl | rfl | rfl
  · rw [StableHlo.reshape_bufs]; simp only [tailSet, Finset.insert_subset_iff, Finset.singleton_subset_iff, Finset.mem_insert, Finset.mem_singleton, eq_self_iff_true, true_or, or_true, and_self]
  · rw [StableHlo.reshape_bufs]; simp only [tailSet, Finset.insert_subset_iff, Finset.singleton_subset_iff, Finset.mem_insert, Finset.mem_singleton, eq_self_iff_true, true_or, or_true, and_self]
  · rw [StableHlo.binary_bufs]; simp only [tailSet, Finset.insert_subset_iff, Finset.singleton_subset_iff, Finset.mem_insert, Finset.mem_singleton, eq_self_iff_true, true_or, or_true, and_self]

theorem tail_fresh : ∀ ops ∈ ([hostOps1] : List (List (HloOp τ sig (Elt F)))), ∀ op ∈ ops, op.fresh = ∅ := by
  intro ops hops op hop
  simp only [List.mem_cons, List.mem_nil_iff, List.not_mem_nil, or_false] at hops
  subst hops
  simp only [List.mem_cons, List.mem_nil_iff, List.not_mem_nil, or_false] at hop
  rcases hop with rfl | rfl | rfl <;> rfl

set_option backward.isDefEq.respectTransparency.types false in
/-- Those five, one by one. -/
theorem held_tail (c : Dev nD) (W : Valuation τ sig (Elt F)) :
    (StableHlo.held (c.tc : Thread nD τ) tailSet W : sProp 𝕄)
      = iprop((((c.tc : Thread nD τ).loc main_v2_0) ↦{fullShare} W (Proc.devRef (τ := τ) .tc main_v2_0 : DevRef τ sig)) ∗ (((c.tc : Thread nD τ).loc main_v2_1) ↦{fullShare} W (Proc.devRef (τ := τ) .tc main_v2_1 : DevRef τ sig))
          ∗ (((c.tc : Thread nD τ).loc main_v3) ↦{fullShare} W (Proc.devRef (τ := τ) .tc main_v3 : DevRef τ sig)) ∗ (((c.tc : Thread nD τ).loc main_v4) ↦{fullShare} W (Proc.devRef (τ := τ) .tc main_v4 : DevRef τ sig))
          ∗ (((c.tc : Thread nD τ).loc main_v5) ↦{fullShare} W (Proc.devRef (τ := τ) .tc main_v5 : DevRef τ sig))) := by
  unfold StableHlo.held tailSet
  rw [bigSep_eq_bigSepL_of_eq [(Proc.devRef (τ := τ) .tc main_v2_0 : DevRef τ sig), (Proc.devRef (τ := τ) .tc main_v2_1 : DevRef τ sig), (Proc.devRef (τ := τ) .tc main_v3 : DevRef τ sig), (Proc.devRef (τ := τ) .tc main_v4 : DevRef τ sig), (Proc.devRef (τ := τ) .tc main_v5 : DevRef τ sig)] (by decide) (by decide), bigSepL5]

theorem Wt_v2_0 (c : Dev nD) : Wt m c (Proc.devRef (τ := τ) .tc main_v2_0 : DevRef τ sig) = (dats m 0 c).arrAt 4 cfg0.N := by
  unfold Wt; rw [Function.update_of_ne (StableHlo.devRef_ne_of_ne (by decide)), Function.update_self]
theorem Wt_v2_1 (c : Dev nD) : Wt m c (Proc.devRef (τ := τ) .tc main_v2_1 : DevRef τ sig) = (dats m 0 c).arrAt 5 cfg0.N := by
  unfold Wt; rw [Function.update_self]
theorem Wt_other (c : Dev nD) (r : Ref sig .tc) (h0 : r ≠ main_v2_0) (h1 : r ≠ main_v2_1) : Wt m c (Proc.devRef (τ := τ) .tc r : DevRef τ sig) = V m c r := by
  unfold Wt; rw [Function.update_of_ne (StableHlo.devRef_ne_of_ne h1), Function.update_of_ne (StableHlo.devRef_ne_of_ne h0)]

/-- The lines after the region write three buffers and no other. -/
theorem tail_writes : (hostOps1 : List (HloOp τ sig (Elt F))).Forall fun op => op.writes ⊆ (([main_v3, main_v4, main_v5] : List (Ref sig .tc)).map (Proc.devRef (τ := τ) .tc)).toFinset := by
  simp only [List.Forall]
  refine ⟨?_, ?_, ?_⟩
  · rw [StableHlo.reshape_writes]; simp
  · rw [StableHlo.reshape_writes]; simp
  · rw [StableHlo.binary_writes]; simp

theorem Wfin_keep (c : Dev nD) (r : Ref sig .tc) (hr : r ∉ ([main_v3, main_v4, main_v5] : List (Ref sig .tc))) :
    Wfin m c r = Wt m c (Proc.devRef (τ := τ) .tc r : DevRef τ sig) :=
  StableHlo.after_of_writes_sub hostOps1 (Wt m c) tail_writes hr

set_option backward.isDefEq.respectTransparency.types false in
/-- After the host lines: the two results are still what the region wrote back (the lines do not write them), the
    labels are untouched, and the three buffers the lines wrote hold their results — the arrays and the bypassing
    buffers as the launch's continuation wants them. -/
theorem tail_close (c : Dev nD) :
    iprop((((c.tc : Thread nD τ).loc main_arg0) ↦{fullShare.left} (dats m 0 c).arrAt 0 cfg0.N) ∗ (((c.tc : Thread nD τ).loc main_arg0) ↦{fullShare.right} (dats m 0 c).arrAt 1 cfg0.N)
        ∗ (((c.tc : Thread nD τ).loc main_v0) ↦{fullShare} (dats m 0 c).arrAt 2 cfg0.N) ∗ (((c.tc : Thread nD τ).loc main_v1) ↦{fullShare} (dats m 0 c).arrAt 3 cfg0.N)
        ∗ (((c.tc : Thread nD τ).loc main_arg1) ↦{fullShare} V m c main_arg1)
        ∗ (StableHlo.held (c.tc : Thread nD τ) tailSet (StableHlo.after [hostOps1].flatten (Wt m c)) : sProp 𝕄))
      ⊢ iprop(((((c.tc : Thread nD τ).loc main_arg0) ↦{fullShare.left} (dats m 0 c).arrAt 0 cfg0.N) ∗ (((c.tc : Thread nD τ).loc main_arg0) ↦{fullShare.right} (dats m 0 c).arrAt 1 cfg0.N)
          ∗ (((c.tc : Thread nD τ).loc main_v0) ↦{fullShare} (dats m 0 c).arrAt 2 cfg0.N) ∗ (((c.tc : Thread nD τ).loc main_v1) ↦{fullShare} (dats m 0 c).arrAt 3 cfg0.N)
          ∗ (((c.tc : Thread nD τ).loc main_v2_0) ↦{fullShare} (dats m 0 c).arrAt 4 cfg0.N) ∗ (((c.tc : Thread nD τ).loc main_v2_1) ↦{fullShare} (dats m 0 c).arrAt 5 cfg0.N))
        ∗ ((((c.tc : Thread nD τ).loc main_arg1) ↦{fullShare} Wfin m c main_arg1) ∗ (((c.tc : Thread nD τ).loc main_v3) ↦{fullShare} Wfin m c main_v3)
          ∗ (((c.tc : Thread nD τ).loc main_v4) ↦{fullShare} Wfin m c main_v4) ∗ (((c.tc : Thread nD τ).loc main_v5) ↦{fullShare} Wfin m c main_v5))) := by
  rw [held_tail]
  have e0 : StableHlo.after [hostOps1].flatten (Wt m c) (Proc.devRef (τ := τ) .tc main_v2_0 : DevRef τ sig) = (dats m 0 c).arrAt 4 cfg0.N :=
    (Wfin_keep m c main_v2_0 (by decide)).trans (Wt_v2_0 m c)
  have e1 : StableHlo.after [hostOps1].flatten (Wt m c) (Proc.devRef (τ := τ) .tc main_v2_1 : DevRef τ sig) = (dats m 0 c).arrAt 5 cfg0.N :=
    (Wfin_keep m c main_v2_1 (by decide)).trans (Wt_v2_1 m c)
  have e2 : Wfin m c main_arg1 = V m c main_arg1 :=
    (Wfin_keep m c main_arg1 (by decide)).trans (Wt_other m c main_arg1 (by decide) (by decide))
  rw [e0, e1, e2]
  iintro ⟨A0l, A0r, A2, A3, R1, A4, A5, R3, R4, R5⟩
  isplitl [A0l A0r A2 A3 A4 A5]
  · isplitl [A0l]; · iexact A0l
    isplitl [A0r]; · iexact A0r
    isplitl [A2]; · iexact A2
    isplitl [A3]; · iexact A3
    isplitl [A4]; · iexact A4
    iexact A5
  isplitl [R1]; · iexact R1
  isplitl [R3]; · iexact R3
  isplitl [R4]; · iexact R4
  iexact R5

theorem htail (c : Dev nD) (Q' : PUnit → sProp 𝕄) :
    iprop((iprop((dats m 0 c).arrays ((dats m 0 c).arrAt · cfg0.N) ∗ unscopedRest (Ix := Unit) (Name := ℕ) (U := UR sig nD τ) (Lvl := ℕ) spec0 c (Wfin m c)) -∗ Q' ⟨⟩)
        ∗ boundary (c.tc : Thread nD τ) ∗ (dats m 0 c).arrays ((dats m 0 c).arrAt · cfg0.N) ∗ unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_chain, unscopedRest0_eq, unscopedRest0_eq]
  iintro ⟨Hk, Hb, ⟨A0l, A0r, A2, A3, A4, A5⟩, ⟨R1, R3, R4, R5⟩⟩
  rw [← List.append_nil [StableHlo.seq hostOps1]]
  iapply (Pipeline.wp_seqs_then (fun q => (cfgs q).toPCfg (Val := Elt F)) defs₀ Variants.none c tailSet [] [hostOps1] tail_sub tail_fresh (Wt m c)) $$ [Hb A4 A5 R3 R4 R5]
  · isplitl [Hb]; · iexact Hb
    rw [held_tail, Wt_v2_0, Wt_v2_1, Wt_other m c main_v3 (by decide) (by decide), Wt_other m c main_v4 (by decide) (by decide),
      Wt_other m c main_v5 (by decide) (by decide)]
    isplitl [A4]; · iexact A4
    isplitl [A5]; · iexact A5
    isplitl [R3]; · iexact R3
    isplitl [R4]; · iexact R4
    iexact R5
  iintro ⟨-, Hh⟩
  rw [Pipeline.chain_nil, wp_pure]
  imodintro
  iapply Hk
  iapply (tail_close m c)
  isplitl [A0l]; · iexact A0l
  isplitl [A0r]; · iexact A0r
  isplitl [A2]; · iexact A2
  isplitl [A3]; · iexact A3
  isplitl [R1]; · iexact R1
  iexact Hh

set_option backward.isDefEq.respectTransparency.types false in
theorem run_main (Q : PUnit × MemSt nD τ sig (Elt F) → Prop)
    (hQ : ∀ s : MemSt nD τ sig (Elt F),
      (∀ c : Dev nD, (∀ w, s.mem (((cfg0).spec w).arr.view.loc (c.tc : Thread nD τ)) = (dats m 0 c).arrAt w (cfg0).N)
        ∧ (∀ b ∈ Pipeline.restRefs sig spec0, s.mem ((c.tc : Thread nD τ).loc b) = Wfin m c b)) → Q (⟨⟩, s)) :
    θ_run defs (onTc (τ := τ) (main (F := F))) (s₀ m ρ) Q := by
  classical
  exact Pipeline.θ_run_region_noSem_pf_tail (fun q => (cfgs q).toPCfg (Val := Elt F)) (fun q => (cfgs q).toPCfg_adm) (dats m) () cellOf_inj 0 winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    (u₀ := initOf (Pipeline.cells cfgs cellOf_inj) (Pipeline.launchToks cfgs cellOf_inj)) (hu₀ := .rfl)
    (V := V m) (hmain := hmain m Variants.none)
    (hsplit := hsplit m) (hpf := fun _ k => k.elim0)
    (X := fun _ => iprop(emp)) (Y := fun _ => iprop(emp))
    (Z := fun c => unscopedRest (Ix := Unit) (Name := ℕ) (U := UR sig nD τ) (Lvl := ℕ) spec0 c (V m c))
    (Z' := fun c => unscopedRest (Ix := Unit) (Name := ℕ) (U := UR sig nD τ) (Lvl := ℕ) spec0 c (Wfin m c))
    (hX := hX m) (hin := hin m) (hout := hout m)
    (htail := htail m)
    (QY := fun c s => ∀ b ∈ Pipeline.restRefs sig spec0, s.mem ((c.tc : Thread nD τ).loc b) = Wfin m c b)
    (hY := hY m)
    (hQ := fun s h => hQ s fun c => ⟨(h c).1, (h c).2.2⟩)

/-! ## What the run leaves -/

/-- The two reshapes before the region write the label column and the label row and nothing else. -/
theorem head_writes : (hostOps0 : List (HloOp τ sig (Elt F))).Forall fun op => op.writes ⊆ (([main_v0, main_v1] : List (Ref sig .tc)).map (Proc.devRef (τ := τ) .tc)).toFinset := by
  simp only [List.Forall]
  refine ⟨?_, ?_⟩
  · rw [StableHlo.reshape_writes]; simp
  · rw [StableHlo.reshape_writes]; simp

/-- A buffer they do not write is, when the region is entered, as launched. -/
theorem V_launch (c : Dev nD) (r : Ref sig .tc) (hr : r ∉ ([main_v0, main_v1] : List (Ref sig .tc))) :
    V m c r = m ((c.tc : Thread nD τ).loc r) :=
  StableHlo.after_of_writes_sub hostOps0 (fun b => m (c, b)) head_writes hr

set_option backward.isDefEq.respectTransparency.types false in
/-- THE RUN: every weakly fair execution of @main terminates without a fault; the result buffer ends at the quotient the
    host lines compute from the two accumulated results (`Wfin … main_v5`) and both arguments end as launched. At any `F`. -/
theorem run_all : θ_run defs (onTc (τ := τ) (main (F := F))) ⟨m, fun _ => 0, ρ⟩ (fun r => ∀ c : Dev nD,
      r.2.mem ((c.tc : Thread nD τ).loc main_v5) = Wfin m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ _ fun s h c =>
    ⟨(h c).2 main_v5 (Pipeline.mem_restRefs_of main_v5 rfl (by decide)),
     ((h c).1 0).trans (((dats m 0 c).arrAt_in 0 rfl _).trans ((A_eq m c 0).trans (V_launch m c main_arg0 (by decide)))),
     ((h c).2 main_arg1 (Pipeline.mem_restRefs_of main_arg1 rfl (by decide))).trans
       ((Wfin_keep m c main_arg1 (by decide)).trans ((Wt_other m c main_arg1 (by decide) (by decide)).trans (V_launch m c main_arg1 (by decide))))⟩

/-- The frame: @main runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.KernelIdeal.Hand

end
-- ==== Proof.Frames.lean ====
/-
  The three frame conjuncts and the idealization conjunct.

  Both printings of the kernel (the word-level one and the idealized one) are the same text read at two instances, and
  the run of Proof/K/Launch.lean and Proof/KI/Launch.lean holds at any instance: the two reshapes of the labels, the
  region — 256 grid points, the embedding array read through two windows at complementary half shares, the two scalar
  results accumulated in their staging buffers and written back once, after the last point — and the three host lines
  that divide the accumulated sum by the accumulated count. The reference is host operations only: its frame is its
  generated run with the result dropped. The ideal pass rewrote nothing, so the idealization conjunct is `True`.
-/
import proofs.«125900_j5763846111471_1_alg».proof.Defs
import proofs.«125900_j5763846111471_1_alg».proof.Proof.Gen.Kernel
import proofs.«125900_j5763846111471_1_alg».proof.Proof.Gen.KernelIdeal
import proofs.«125900_j5763846111471_1_alg».proof.Proof.Gen.ReferenceIdeal
import proofs.«125900_j5763846111471_1_alg».proof.Proof.Gen.Pre_finite_inputs
import proofs.«125900_j5763846111471_1_alg».proof.Proof.Gen.ReferenceIdeal.Run
import proofs.«125900_j5763846111471_1_alg».proof.Proof.K.Launch
import proofs.«125900_j5763846111471_1_alg».proof.Proof.KI.Launch

noncomputable section

namespace Cert.Proof.Claims

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Claims

end
-- ==== Proof.KI.Result.lean ====
/-
  The two result arrays after the run and the program's result. Each 1 × 1 result is written back once, after the last
  grid point, and its block is the whole array: it ends holding the accumulator after point 255. The host lines then
  divide the first by the second.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.KI.Launch
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The two results after the run -/

/-- All indices of a 1 × 1 array coincide. -/
theorem idx11_eq (a b : S1x1.Idx) : a = b := funext fun d => Fin.ext (by
  have ha := (a d).isLt
  have hb := (b d).isLt
  have hs : S1x1.size d = 1 := by fin_cases d <;> rfl
  omega)

/-- The first result array after the run: the first accumulator after the last grid point. -/
def G4 (c : Dev nD) : Buf (Elt F) ((cfg0.win 4).arr.view.loc (c.tc : Thread nD τ)) := fun _ => acc4 m c 255 (ix2 0 0)
/-- The second: the second accumulator after the last grid point. -/
def G5 (c : Dev nD) : Buf (Elt F) ((cfg0.win 5).arr.view.loc (c.tc : Thread nD τ)) := fun _ => acc5 m c 255 (ix2 0 0)

/-- An index of the first result array is in a point's block iff each coordinate is in the block's range. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2_0).slice (win0_4.rect t)).set ↔ _
  rw [View.set_slice_whole, Rect.mem_set_unit]
  exact Iff.rfl

/-- Both results' block index is (0, 0) at every grid point. -/
theorem idx45 : ∀ t : Fin cfg0.N, ∀ a : Fin 2, win0_4.index t a = 0 ∧ win0_5.index t a = 0 :=
  (by decide +kernel : ∀ t : Fin grid0.N, ∀ a : Fin 2, win0_4.index t a = 0 ∧ win0_5.index t a = 0)

/-- Only the last point writes the first result back, and its block is the whole 1 × 1 array. -/
theorem final4 (c : Dev nD) : (dats m 0 c).arrAt 4 cfg0.N = G4 m c := by
  refine (dats m 0 c).arrAt_eq_of_cover 4 (G4 m c) (fun t hf => ?_) (fun i => ⟨⟨255, by decide⟩, (flush0_4 _).2 rfl, ?_⟩)
  · have ht : t.val = 255 := by
      have h1 := (flush0_4 t).1 hf
      have h2 : t.val < 256 := t.isLt
      omega
    show (cfg0.win 4).cut (grid0.coords t) ((dats m 0 c).after 4 t) = _
    rw [after0_4, ht]
    funext y
    show acc4 m c 255 _ = acc4 m c 255 (ix2 0 0)
    exact congrArg _ (idx11_eq _ _)
  · refine (mem_blk4 _ i).2 fun a => ?_
    have hi : (i a).val < S1x1.size a := (i a).isLt
    have hs : S1x1.size a = 1 := by fin_cases a <;> rfl
    rw [(idx45 _ a).1]
    omega

/-- An index of the second result array is in a point's block iff each coordinate is in the block's range. -/
theorem mem_blk5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v2_1).slice (win0_5.rect t)).set ↔ _
  rw [View.set_slice_whole, Rect.mem_set_unit]
  exact Iff.rfl

/-- Only the last point writes the second result back, and its block is the whole 1 × 1 array. -/
theorem final5 (c : Dev nD) : (dats m 0 c).arrAt 5 cfg0.N = G5 m c := by
  refine (dats m 0 c).arrAt_eq_of_cover 5 (G5 m c) (fun t hf => ?_) (fun i => ⟨⟨255, by decide⟩, (flush0_5 _).2 rfl, ?_⟩)
  · have ht : t.val = 255 := by
      have h1 := (flush0_5 t).1 hf
      have h2 : t.val < 256 := t.isLt
      omega
    show (cfg0.win 5).cut (grid0.coords t) ((dats m 0 c).after 5 t) = _
    rw [after0_5, ht]
    funext y
    show acc5 m c 255 _ = acc5 m c 255 (ix2 0 0)
    exact congrArg _ (idx11_eq _ _)
  · refine (mem_blk5 _ i).2 fun a => ?_
    have hi : (i a).val < S1x1.size a := (i a).isLt
    have hs : S1x1.size a = 1 := by fin_cases a <;> rfl
    rw [(idx45 _ a).2]
    omega

set_option backward.isDefEq.respectTransparency.types false in
/-- THE RESULT: the host lines after the region read the two 1 × 1 results as scalars and divide: the result buffer ends at
    the quotient of the first accumulator after the last grid point by the second. -/
theorem result_eq (c : Dev nD) :
    Wfin m c main_v5 = fun _ => FloatOps.hostDivf (acc4 m c 255 (ix2 0 0)) (acc5 m c 255 (ix2 0 0)) := by
  unfold Wfin
  after_results
  rw [Wt_v2_0, Wt_v2_1, final4, final5]
  rfl

end Cert.KernelIdeal.Hand

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«125900_j5763846111471_1_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.PayIdeal.lean ====
/-
  The body's pure payloads read at an index, on the extended reals: the similarity tile (a matmul of the two blocks' rows,
  each row scaled by the reciprocal square root of its sum of squares, against the transpose), the mask word, and the two
  accumulating payloads (the accumulator plus a sum over the 512 × 512 tile).
-/
import proofs.«125900_j5763846111471_1_alg».proof.Proof.Gen.KernelIdeal.Skeleton
import proofs.«125900_j5763846111471_1_alg».proof.Proof.LibKeepdims
import proofs.«125900_j5763846111471_1_alg».proof.Proof.LibKeepdimsCols
import proofs.«125900_j5763846111471_1_alg».proof.Proof.LibDenseRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.PayIdeal

open Cert.KernelIdeal Cert.KernelIdeal.Gen
open Idealize.ShloMosaic Idealize.ShloMosaic.ValueIdx

/-- The sum of the squares of row `p` of a 512 × 512 block. -/
def ss (x : Vec Ideal S512x512 .f32) (p : Fin 512) : EReal := ∑ d : Fin 512, x (ix2 p d) * x (ix2 p d)

/-- A block's entry times the reciprocal square root of its row's sum of squares: what the body multiplies (the change of
    format to bf16 is the identity on the extended reals). -/
theorem norm_at (x : Vec Ideal S512x512 .f32) (p k : Fin 512) :
    (truncf .bf16 (mulf x (broadcastTo S512x512 (rsqrt (shapeCast S512x1 (multiReduction .add [1] S512 (mulf x x) 0x00000000#32 reduces_S512x512_S512 (.inl rfl) rfl) shapeCasts_S512_S512x1)) broadcasts_S512x1_S512x512)) bitsLt_bf16_f32 : FVec Ideal S512x512 .bf16) (ix2 p k)
      = x (ix2 p k) * Ideal.rsqrt (ss x p) := by
  show x (ix2 p k) * broadcastTo S512x512 _ broadcasts_S512x1_S512x512 (ix2 p k) = _
  refine congrArg (x (ix2 p k) * ·) ?_
  refine (Cert.LibKeepdims.broadcastTo_a1_ab_apply (a := 512) (b := 512) _ broadcasts_S512x1_S512x512 p k).trans ?_
  show Ideal.rsqrt (shapeCast S512x1 _ shapeCasts_S512_S512x1 (ix2 p (0 : Fin 1))) = _
  refine congrArg Ideal.rsqrt ?_
  refine (Cert.LibKeepdims.shapeCast_a_a1_apply (a := 512) _ shapeCasts_S512_S512x1 p 0).trans ?_
  exact (Cert.LibKeepdims.multiReduction_add_rows (a := 512) (b := 512) _ _ reduces_S512x512_S512 _ _ p).trans rfl

/-- The similarity tile: entry (p, q) is the inner product of the normalised row `p` of the first block with the
    normalised row `q` of the second. -/
theorem pay6_apply (x0 x1 : Vec Ideal S512x512 .f32) (p q : Fin 512) :
    k0_pay6 (F := Ideal) x0 x1 (ix2 p q)
      = ∑ k : Fin 512, (x0 (ix2 p k) * Ideal.rsqrt (ss x0 p)) * (x1 (ix2 q k) * Ideal.rsqrt (ss x1 q)) := by
  unfold k0_pay6
  refine (Cert.LibDenseRow.matmulT_at (R := 512) (K := 512) (N := 512) none _ _ transposes_S512x512_p1_0_S512x512 p q).trans ?_
  exact Finset.sum_congr rfl fun k _ => congrArg₂ (· * ·) (norm_at x0 p k) (norm_at x1 q k)

/-- The sum over a 512 × 512 tile of a matrix, as the body takes it: a lane sum along the rows, the column of row sums made
    a [512, 1] array, a lane sum down that column, the one number made a 1 × 1 array. -/
theorem tile_sum (z : FVec Ideal S512x512 .f32) (u w : Fin 1) :
    shapeCast S1x1 (multiReduction .add [0] S1 (shapeCast S512x1 (multiReduction .add [1] S512 z 0x00000000#32 reduces_S512x512_S512 (.inl rfl) rfl) shapeCasts_S512_S512x1)
        0x00000000#32 reduces_S512x1_S1 (.inl rfl) rfl) shapeCasts_S1_S1x1 (ix2 u w)
      = ∑ r : Fin 512, ∑ d : Fin 512, z (ix2 r d) := by
  refine (Cert.LibKeepdims.shapeCast_a_a1_apply (a := 1) _ shapeCasts_S1_S1x1 u w).trans ?_
  refine (Cert.LibKeepdimsCols.multiReduction_add_cols (a := 512) (b := 1) _ _ reduces_S512x1_S1 _ _ u).trans ?_
  refine Finset.sum_congr rfl fun r _ => ?_
  refine (Cert.LibKeepdims.shapeCast_a_a1_apply (a := 512) _ shapeCasts_S512_S512x1 r u).trans ?_
  exact Cert.LibKeepdims.multiReduction_add_rows (a := 512) (b := 512) _ _ reduces_S512x512_S512 _ _ r

/-- The first accumulating payload: the accumulator plus the tile's sum of similarity times mask. -/
theorem pay2_apply (v22 : FVec Ideal S512x512 .f32) (v40 : IVec S512x512 32) (a : Vec Ideal S1x1 .f32) (y : S1x1.Idx) :
    k0_pay2 (F := Ideal) v22 v40 a y = a y + ∑ r : Fin 512, ∑ d : Fin 512, v22 (ix2 r d) * FloatOps.sitofp (F := Ideal) .f32 (v40 (ix2 r d)) := by
  obtain ⟨u, w, rfl⟩ : ∃ (u w : Fin 1), y = ix2 u w := ⟨y 0, y 1, eq_ix2 y⟩
  unfold k0_pay2 k0_pay1
  show shapeCast S1x1 a shapeCasts_S1x1_S1x1 (ix2 u w) + shapeCast S1x1 _ shapeCasts_S1_S1x1 (ix2 u w) = _
  exact congrArg₂ (· + ·) (congrFun (shapeCast_self a shapeCasts_S1x1_S1x1) _) ((tile_sum _ u w).trans rfl)

/-- The second: the accumulator plus the tile's count of masked-in pairs. -/
theorem pay3_apply (v40 : IVec S512x512 32) (a : Vec Ideal S1x1 .f32) (y : S1x1.Idx) :
    k0_pay3 (F := Ideal) v40 a y = a y + ∑ r : Fin 512, ∑ d : Fin 512, FloatOps.sitofp (F := Ideal) .f32 (v40 (ix2 r d)) := by
  obtain ⟨u, w, rfl⟩ : ∃ (u w : Fin 1), y = ix2 u w := ⟨y 0, y 1, eq_ix2 y⟩
  unfold k0_pay3 k0_pay1
  show shapeCast S1x1 a shapeCasts_S1x1_S1x1 (ix2 u w) + shapeCast S1x1 _ shapeCasts_S1_S1x1 (ix2 u w) = _
  exact congrArg₂ (· + ·) (congrFun (shapeCast_self a shapeCasts_S1x1_S1x1) _) ((tile_sum _ u w).trans rfl)

/-- The mask word at (p, q) of the tile of grid point `i`: the global row `512·i₀ + p` is below the global column
    `512·i₁ + q` (a signed comparison of 32-bit words) and the two labels differ. -/
theorem pay7_apply (i : grid0.Coords) (x2 : Vec Ideal S512x1 .i32) (x3 : Vec Ideal S1x512 .i32) (p q : Fin 512) :
    k0_pay7 (F := Ideal) i x2 x3 (ix2 p q)
      = (IntOp.andi (IntOp.cmpi .slt (IntOp.addi (Scalar.muli (BitVec.ofNat 32 (i 0).val) 512#32) (BitVec.ofNat 32 p.val))
            (IntOp.addi (Scalar.muli (BitVec.ofNat 32 (i 1).val) 512#32) (BitVec.ofNat 32 q.val)))
          (IntOp.cmpi .ne (x2 (ix2 p (0 : Fin 1))) (x3 (ix2 (0 : Fin 1) q)))).setWidth 32 := by
  unfold k0_pay7
  show (IntOp.andi (IntOp.cmpi .slt (IntOp.addi _ (iota .tc S512x512 32 [0] iota_S512x512_d0_w32 (ix2 p q))) (IntOp.addi _ (iota .tc S512x512 32 [1] iota_S512x512_d1_w32 (ix2 p q))))
      (IntOp.cmpi .ne (broadcastTo S512x512 (shapeCast S512x1 x2 shapeCasts_S512x1_S512x1) broadcasts_S512x1_S512x512 (ix2 p q))
        (broadcastTo S512x512 (shapeCast S1x512 x3 shapeCasts_S1x512_S1x512) broadcasts_S1x512_S512x512 (ix2 p q)))).setWidth 32 = _
  rw [iota_single_apply, iota_single_apply, shapeCast_self, shapeCast_self, Cert.LibKeepdims.broadcastTo_a1_ab_apply, broadcastTo_1b_ab_apply]
  rfl

end Cert.KernelIdeal.PayIdeal

end
-- ==== Proof.LibNormalize.lean ====
/-
  General facts about the idealized operations, for any kernel that normalises by a reciprocal square root against a
  reference that divides by a square root, builds a strict-triangle mask from 32-bit indices, or accumulates a scalar over
  grid points.
-/
import Idealize.ShloMosaic.PureOps.Ideal
import Mathlib.Algebra.BigOperators.Fin

noncomputable section

open scoped BigOperators

namespace Cert.LibNormalize

open Idealize.ShloMosaic

/-- On the extended reals, for ANY `s > 0` (a positive real or `+∞`), multiplying by the reciprocal square root of `s` is
    dividing by its square root: `x * Ideal.rsqrt s = Ideal.div x (Ideal.sqrt s)`. At a positive real both are `x · (√s)⁻¹`;
    at `+∞` both are `x · 0`. (At `s = 0` they differ: `0 · ⊤ = 0` against `Ideal.div 0 0 = ⊥`.) -/
theorem mul_rsqrt_eq_div_sqrt (x s : EReal) (hs : 0 < s) : x * Ideal.rsqrt s = Ideal.div x (Ideal.sqrt s) := by
  induction s using EReal.rec with
  | bot => exact absurd hs (by simp)
  | coe r =>
    have hr : 0 < r := by exact_mod_cast hs
    have hsq : Real.sqrt r ≠ 0 := (Real.sqrt_pos.2 hr).ne'
    rw [Ideal.rsqrt_coe, Ideal.sqrt_coe, if_neg (not_lt.2 hr.le), if_neg hr.ne', if_neg (not_lt.2 hr.le), Ideal.div_coe hsq, one_div]
  | top =>
    rw [Ideal.rsqrt_top, Ideal.sqrt_top, Ideal.div, if_neg EReal.top_ne_zero, EReal.inv_top]

/-- What `jnp.triu(ones, k=1)` lowers to, against a kernel's signed "less than": selecting 0 where `a + 0 ≥ b` (signed) and 1
    elsewhere is the bit of `a < b` (signed), for any two 32-bit words. -/
theorem select_sge (a b : BitVec 32) : Scalar.select (IntOp.cmpi .sge (IntOp.addi a 0#32) b) 0#1 1#1 = IntOp.cmpi .slt a b := by
  simp only [IntOp.cmpi, IntOp.addi, BitVec.add_zero, Scalar.select, BitVec.slt, BitVec.sle]
  by_cases h : a.toInt < b.toInt
  · have h' : ¬ b.toInt ≤ a.toInt := not_le.2 h
    simp [h, h']
  · have h' : b.toInt ≤ a.toInt := not_lt.1 h
    simp [h, h']

/-- One bit zero-extended to 32 bits and read as a signed integer is the bit read unsigned: a kernel's
    `sitofp (extui mask)` against a reference's `convert` of the same `i1`. -/
theorem toInt_setWidth_one : ∀ b : BitVec 1, (b.setWidth 32).toInt = (b.toNat : ℤ) := by decide

variable {M : Type*} [AddCommMonoid M]

/-- An accumulator that starts at `z + T 0` and adds `T (n + 1)` at each later step holds `z` plus the sum of the `T`s so
    far: a scalar output accumulated across grid points, read after point `n`. In any commutative monoid (the extended
    reals: no finiteness asked). -/
theorem acc_eq_sum (z : M) (T : ℕ → M) (acc : ℕ → M) (h0 : acc 0 = z + T 0) (hs : ∀ n, acc (n + 1) = acc n + T (n + 1)) (n : ℕ) :
    acc n = z + ∑ t ∈ Finset.range (n + 1), T t := by
  induction n with
  | zero => rw [h0, Finset.sum_range_one]
  | succ n ih => rw [hs, ih, Finset.sum_range_succ _ (n + 1), add_assoc]

end Cert.LibNormalize

end
-- ==== Proof.Spec.lean ====
/-
  The mathematics that joins the two programs, with no program in it.

  * Dividing by the square root of a positive extended real is multiplying by its reciprocal square root
    (`mul_rsqrt_eq_div_sqrt`, with the other general facts in LibNormalize.lean): at a positive real both are `x · (√s)⁻¹`,
    at `+∞` both are `x · 0`.
  * A sum over 8192 = 16 · 512 indices is a sum over 16 blocks of 512 (`sum_blocks`); a sum over the 256 grid points,
    read through quotient and remainder by 16, is a double sum over 16 × 16 (`sum_grid`).
  * An accumulator that starts at `z`, adds `T 0` and then `T (n + 1)` at each later step holds `z` plus the sum of
    the `T`s so far (`acc_eq_sum`) — addition on the extended reals is commutative and associative, infinities
    included, so no finiteness is asked.
-/
import proofs.«125900_j5763846111471_1_alg».proof.Proof.LibNormalize
import Idealize.ShloMosaic.PureOps.Ideal
import Mathlib.Algebra.BigOperators.Fin
import Mathlib.Logic.Equiv.Fin.Basic

noncomputable section

open scoped BigOperators

namespace Cert.PairLoss

open Idealize.ShloMosaic

export Cert.LibNormalize (mul_rsqrt_eq_div_sqrt select_sge toInt_setWidth_one acc_eq_sum)

variable {M : Type*} [AddCommMonoid M]

/-- A sum over 8192 indices, by 16 blocks of 512. -/
theorem sum_blocks (g : ℕ → M) : ∑ r : Fin 8192, g r.val = ∑ i : Fin 16, ∑ p : Fin 512, g (p.val + 512 * i.val) := by
  rw [← Fintype.sum_prod_type' (f := fun (i : Fin 16) (p : Fin 512) => g (p.val + 512 * i.val))]
  exact (Fintype.sum_equiv (finProdFinEquiv : Fin 16 × Fin 512 ≃ Fin 8192) _ _ (fun x => rfl)).symm

/-- A sum over the 256 grid points, read through quotient and remainder by 16, is a double sum over 16 × 16. -/
theorem sum_grid (h : ℕ → ℕ → M) : ∑ t : Fin 256, h (t.val / 16) (t.val % 16) = ∑ i : Fin 16, ∑ j : Fin 16, h i.val j.val := by
  rw [← Fintype.sum_prod_type' (f := fun (i j : Fin 16) => h i.val j.val)]
  refine (Fintype.sum_equiv (finProdFinEquiv : Fin 16 × Fin 16 ≃ Fin 256) _ _ (fun x => ?_)).symm
  have h1 : ((finProdFinEquiv : Fin 16 × Fin 16 ≃ Fin 256) x).val = x.2.val + 16 * x.1.val := rfl
  have h2 := x.2.isLt
  rw [h1, show (x.2.val + 16 * x.1.val) / 16 = x.1.val by omega, show (x.2.val + 16 * x.1.val) % 16 = x.2.val by omega]

/-- The same, the global index written `512 · i + p`. -/
theorem sum_blocks' (g : ℕ → M) : ∑ r : Fin 8192, g r.val = ∑ i : Fin 16, ∑ p : Fin 512, g (512 * i.val + p.val) := by
  rw [sum_blocks]
  exact Finset.sum_congr rfl fun i _ => Finset.sum_congr rfl fun p _ => by rw [Nat.add_comm]

/-- The 256 tiles of 512 × 512 pairs, taken in grid order, are all 8192 × 8192 pairs. -/
theorem sum_tiles (g : ℕ → ℕ → M) :
    ∑ t : Fin 256, ∑ p : Fin 512, ∑ q : Fin 512, g (512 * (t.val / 16) + p.val) (512 * (t.val % 16) + q.val)
      = ∑ r : Fin 8192, ∑ c : Fin 8192, g r.val c.val := by
  rw [sum_grid (fun i j => ∑ p : Fin 512, ∑ q : Fin 512, g (512 * i + p.val) (512 * j + q.val)),
    sum_blocks' (fun r => ∑ c : Fin 8192, g r c.val)]
  refine Finset.sum_congr rfl fun i _ => ?_
  rw [Finset.sum_comm]
  refine Finset.sum_congr rfl fun p _ => ?_
  rw [sum_blocks' (fun c => g (512 * i.val + p.val) c)]

/-! ## The common specification

Over `E r k`, the embedding entries, and `Y r`, the labels as 32-bit words, both indexed by natural numbers. -/

section Loss

variable (E : ℕ → ℕ → EReal) (Y : ℕ → BitVec 32)

/-- The sum of the squares of row `r`. -/
def rowss (r : ℕ) : EReal := ∑ d : Fin 512, E r d.val * E r d.val

/-- The similarity of rows `r` and `c` as the kernel takes it: each entry times the reciprocal square root of its row's
    sum of squares; -/
def simK (r c : ℕ) : EReal := ∑ k : Fin 512, (E r k.val * Ideal.rsqrt (rowss E r)) * (E c k.val * Ideal.rsqrt (rowss E c))
/-- as the reference takes it: each entry divided by the square root of that sum. -/
def simR (r c : ℕ) : EReal := ∑ k : Fin 512, Ideal.div (E r k.val) (Ideal.sqrt (rowss E r)) * Ideal.div (E c k.val) (Ideal.sqrt (rowss E c))

/-- Where both rows have a positive sum of squares the two are one number. -/
theorem simK_eq_simR (r c : ℕ) (hr : 0 < rowss E r) (hc : 0 < rowss E c) : simK E r c = simR E r c :=
  Finset.sum_congr rfl fun k _ => by rw [mul_rsqrt_eq_div_sqrt _ _ hr, mul_rsqrt_eq_div_sqrt _ _ hc]

/-- The mask of the pair (r, c) as the kernel's word: row below column, labels different, widened to 32 bits; -/
def mskK (r c : ℕ) : BitVec 32 :=
  (IntOp.andi (IntOp.cmpi .slt (BitVec.ofNat 32 r) (BitVec.ofNat 32 c)) (IntOp.cmpi .ne (Y r) (Y c))).setWidth 32
/-- as the reference's bit: the strict upper triangle selected where NOT (row + 0 ≥ column), and the labels different. -/
def mskR (r c : ℕ) : BitVec 1 :=
  IntOp.andi (Scalar.select (IntOp.cmpi .sge (IntOp.addi (BitVec.ofNat 32 r) 0#32) (BitVec.ofNat 32 c)) 0#1 1#1) (IntOp.cmpi .ne (Y r) (Y c))

/-- The two masks are one number on the extended reals. -/
theorem msk_eq (r c : ℕ) :
    FloatOps.sitofp (F := Ideal) .f32 (mskK Y r c) = FloatOps.uitofp (F := Ideal) .f32 (mskR Y r c) := by
  unfold mskK mskR
  rw [select_sge]
  show (((_ : BitVec 32).toInt : ℝ) : EReal) = (((_ : BitVec 1).toNat : ℝ) : EReal)
  rw [toInt_setWidth_one]
  norm_cast

/-- The global row of local row `p` of block `i`, as the body computes it in 32-bit words. -/
theorem row_word (i p : ℕ) : IntOp.addi (Scalar.muli (BitVec.ofNat 32 i) 512#32) (BitVec.ofNat 32 p) = BitVec.ofNat 32 (512 * i + p) := by
  apply BitVec.eq_of_toNat_eq
  simp only [IntOp.addi, Scalar.muli, IntOp.muli, BitVec.toNat_add, BitVec.toNat_mul, BitVec.toNat_ofNat]
  omega

/-- The masked sum of similarities over all pairs, and the number of masked-in pairs. -/
def lossSum : EReal := ∑ r : Fin 8192, ∑ c : Fin 8192, simK E r.val c.val * FloatOps.sitofp (F := Ideal) .f32 (mskK Y r.val c.val)
def cntSum : EReal := ∑ r : Fin 8192, ∑ c : Fin 8192, FloatOps.sitofp (F := Ideal) .f32 (mskK Y r.val c.val)

/-- Where every row has a positive sum of squares, the kernel's masked sum is the reference's; -/
theorem lossSum_eq (hpos : ∀ r : Fin 8192, 0 < rowss E r.val) :
    lossSum E Y = ∑ r : Fin 8192, ∑ c : Fin 8192, simR E r.val c.val * FloatOps.uitofp (F := Ideal) .f32 (mskR Y r.val c.val) :=
  Finset.sum_congr rfl fun r _ => Finset.sum_congr rfl fun c _ => by
    rw [simK_eq_simR E _ _ (hpos r) (hpos c), msk_eq]
/-- and the two counts agree always. -/
theorem cntSum_eq : cntSum Y = ∑ r : Fin 8192, ∑ c : Fin 8192, FloatOps.uitofp (F := Ideal) .f32 (mskR Y r.val c.val) :=
  Finset.sum_congr rfl fun r _ => Finset.sum_congr rfl fun c _ => msk_eq Y _ _

end Loss

end Cert.PairLoss

end
-- ==== Proof.Index.lean ====
/-
  The two argument arrays indexed by natural numbers (coordinates read modulo the extents, so that no bound proof rides
  inside an index): `Eof A r k` is the embedding array at row `r`, column `k`; `Yof L r` the label word of row `r`.
  At coordinates inside the extents they are the arrays themselves.
-/
import Idealize.ShloMosaic.Lib.ValueIdx
import Idealize.ShloMosaic.PureOps.Ideal

noncomputable section

namespace Cert.PairLoss

open Idealize.ShloMosaic Idealize.ShloMosaic.ValueIdx

def Eof (A : (⟨2, ![8192, 512]⟩ : Shape).Idx → EReal) (r k : ℕ) : EReal :=
  A (ix2 ⟨r % 8192, Nat.mod_lt _ (by decide)⟩ ⟨k % 512, Nat.mod_lt _ (by decide)⟩)

def Yof (L : (⟨1, ![8192]⟩ : Shape).Idx → BitVec 32) (r : ℕ) : BitVec 32 :=
  L (ix1 ⟨r % 8192, Nat.mod_lt _ (by decide)⟩)

theorem Eof_ix2 (A : (⟨2, ![8192, 512]⟩ : Shape).Idx → EReal) (r : Fin 8192) (k : Fin 512) : A (ix2 r k) = Eof A r.val k.val := by
  unfold Eof
  exact congrArg A (congrArg₂ ix2 (Fin.ext (Nat.mod_eq_of_lt r.isLt).symm) (Fin.ext (Nat.mod_eq_of_lt k.isLt).symm))

theorem Eof_apply (A : (⟨2, ![8192, 512]⟩ : Shape).Idx → EReal) (j : (⟨2, ![8192, 512]⟩ : Shape).Idx) : A j = Eof A (j 0).val (j 1).val := by
  conv_lhs => rw [eq_ix2 j]
  exact Eof_ix2 A (j 0) (j 1)

theorem Yof_ix1 (L : (⟨1, ![8192]⟩ : Shape).Idx → BitVec 32) (r : Fin 8192) : L (ix1 r) = Yof L r.val := by
  unfold Yof
  exact congrArg L (congrArg ix1 (Fin.ext (Nat.mod_eq_of_lt r.isLt).symm))

end Cert.PairLoss

end
-- ==== Proof.KernelValue.lean ====
/-
  The idealized kernel's result on the extended reals. Point `t` of the 16 × 16 grid is the tile of rows
  `512·(t/16) …` and columns `512·(t%16) …`: its four blocks are read off the argument arrays at those global indices,
  its contribution is the masked sum of similarities (and the count of masked-in pairs) over its 512 × 512 pairs, the two
  accumulators add the contributions in grid order from zero, and the 256 tiles are all 8192 × 8192 pairs.
-/
import proofs.«125900_j5763846111471_1_alg».proof.Proof.Gen.KernelIdeal.Launch
import proofs.«125900_j5763846111471_1_alg».proof.Proof.Gen.KernelIdeal.Skeleton
import proofs.«125900_j5763846111471_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«125900_j5763846111471_1_alg».proof.Proof.KI.Result
import proofs.«125900_j5763846111471_1_alg».proof.Proof.PayIdeal
import proofs.«125900_j5763846111471_1_alg».proof.Proof.Spec
import proofs.«125900_j5763846111471_1_alg».proof.Proof.Index
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.PairLoss Cert.KernelIdeal.PayIdeal
open scoped BigOperators

variable (m : (ℓ : Loc nD τ sig) → Buf (Elt Ideal) ℓ)

/-! ## The blocks, in natural-number coordinates -/

/-- The printed index maps and the grid's coordinates, decided over the 256 points: point `t` is tile row `t / 16`,
    tile column `t % 16`. -/
theorem grid_idx : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ (grid0.coords t 0).val = t.val / 16 ∧ (grid0.coords t 1).val = t.val % 16 :=
  (by decide +kernel : ∀ t : Fin grid0.N, _)

/-- The embedding array and the label vector as launched, on core `c`. -/
abbrev EA (c : Dev nD) : ℕ → ℕ → EReal := Eof (m ((c.tc : Thread nD τ).loc main_arg0))
abbrev YL (c : Dev nD) : ℕ → BitVec 32 := Yof (m ((c.tc : Thread nD τ).loc main_arg1))

set_option backward.isDefEq.respectTransparency.types false in
/-- The label column the region finds: the label vector cast to [8192, 1]; -/
theorem V_v0 (c : Dev nD) : V m c main_v0 = fun i => shapeCast S8192x1 (m ((c.tc : Thread nD τ).loc main_arg1)) shapeCasts_S8192_S8192x1 i := by
  show StableHlo.after hostOps0 (fun b => m (c, b)) (Proc.devRef .tc main_v0) = _
  after_results
  rfl
set_option backward.isDefEq.respectTransparency.types false in
/-- the label row: the label vector cast to [1, 8192]. -/
theorem V_v1 (c : Dev nD) : V m c main_v1 = fun i => shapeCast S1x8192 (m ((c.tc : Thread nD τ).loc main_arg1)) shapeCasts_S8192_S1x8192 i := by
  show StableHlo.after hostOps0 (fun b => m (c, b)) (Proc.devRef .tc main_v1) = _
  after_results
  rfl

/-- Entry (p, k) of the first window's block at point `t` is the embedding at global row `512·(t/16) + p`. -/
theorem blk0_at (c : Dev nD) (t : Fin cfg0.N) (p k : Fin 512) :
    iblk m c 0 t (ix2 p k) = EA m c (512 * (t.val / 16) + p.val) k.val := by
  show V m c main_arg0 (((cfg0.win 0).blk t).view.emb (ix2 p k)) = _
  rw [V_launch m c main_arg0 (by decide)]
  refine (Eof_apply _ _).trans ?_
  obtain ⟨e0, e1, -⟩ := grid_idx t
  have h0 : ((((cfg0.win 0).blk t).view.emb (ix2 p k)) 0).val = 512 * (t.val / 16) + p.val := by
    show win0_0.index t (0 : Fin 2) * 512 + 1 * p.val = _
    rw [e0]; omega
  have h1 : ((((cfg0.win 0).blk t).view.emb (ix2 p k)) 1).val = k.val := by
    show win0_0.index t (1 : Fin 2) * 512 + 1 * k.val = _
    rw [e1]; omega
  rw [h0, h1]

/-- Entry (q, k) of the second window's block is the embedding at global row `512·(t%16) + q`. -/
theorem blk1_at (c : Dev nD) (t : Fin cfg0.N) (q k : Fin 512) :
    iblk m c 1 t (ix2 q k) = EA m c (512 * (t.val % 16) + q.val) k.val := by
  show V m c main_arg0 (((cfg0.win 1).blk t).view.emb (ix2 q k)) = _
  rw [V_launch m c main_arg0 (by decide)]
  refine (Eof_apply _ _).trans ?_
  obtain ⟨-, -, e2, e3, -⟩ := grid_idx t
  have h0 : ((((cfg0.win 1).blk t).view.emb (ix2 q k)) 0).val = 512 * (t.val % 16) + q.val := by
    show win0_1.index t (0 : Fin 2) * 512 + 1 * q.val = _
    rw [e2]; omega
  have h1 : ((((cfg0.win 1).blk t).view.emb (ix2 q k)) 1).val = k.val := by
    show win0_1.index t (1 : Fin 2) * 512 + 1 * k.val = _
    rw [e3]; omega
  rw [h0, h1]

/-- Row `p` of the label column's block is the label of global row `512·(t/16) + p`. -/
theorem blk2_at (c : Dev nD) (t : Fin cfg0.N) (p : Fin 512) (u : Fin 1) :
    iblk m c 2 t (ix2 p u) = YL m c (512 * (t.val / 16) + p.val) := by
  show V m c main_v0 (((cfg0.win 2).blk t).view.emb (ix2 p u)) = _
  rw [V_v0]
  obtain ⟨-, -, -, -, e4, e5, -⟩ := grid_idx t
  have h2 : t.val < 256 := t.isLt
  have hrow : 512 * (t.val / 16) + p.val < 8192 := by omega
  have hemb : ((cfg0.win 2).blk t).view.emb (ix2 p u) = ix2 (⟨512 * (t.val / 16) + p.val, hrow⟩ : Fin 8192) (0 : Fin 1) :=
    funext fun a => Fin.ext (by
      match a with
      | ⟨0, _⟩ => show win0_2.index t (0 : Fin 2) * 512 + 1 * p.val = 512 * (t.val / 16) + p.val; rw [e4]; omega
      | ⟨1, _⟩ => show win0_2.index t (1 : Fin 2) * 1 + 1 * u.val = 0; rw [e5]; omega)
  rw [hemb]
  exact (Cert.LibKeepdims.shapeCast_a_a1_apply (a := 8192) _ shapeCasts_S8192_S8192x1 _ _).trans (Yof_ix1 _ ⟨_, hrow⟩)

/-- Column `q` of the label row's block is the label of global row `512·(t%16) + q`. -/
theorem blk3_at (c : Dev nD) (t : Fin cfg0.N) (u : Fin 1) (q : Fin 512) :
    iblk m c 3 t (ix2 u q) = YL m c (512 * (t.val % 16) + q.val) := by
  show V m c main_v1 (((cfg0.win 3).blk t).view.emb (ix2 u q)) = _
  rw [V_v1]
  obtain ⟨-, -, -, -, -, -, e6, e7, -⟩ := grid_idx t
  have h2 : t.val < 256 := t.isLt
  have hrow : 512 * (t.val % 16) + q.val < 8192 := by omega
  have hemb : ((cfg0.win 3).blk t).view.emb (ix2 u q) = ix2 (0 : Fin 1) (⟨512 * (t.val % 16) + q.val, hrow⟩ : Fin 8192) :=
    funext fun a => Fin.ext (by
      match a with
      | ⟨0, _⟩ => show win0_3.index t (0 : Fin 2) * 1 + 1 * u.val = 0; rw [e6]; omega
      | ⟨1, _⟩ => show win0_3.index t (1 : Fin 2) * 512 + 1 * q.val = 512 * (t.val % 16) + q.val; rw [e7]; omega)
  rw [hemb]
  exact (shapeCast_a_1a_apply (a := 8192) _ shapeCasts_S8192_S1x8192 _ _).trans (Yof_ix1 _ ⟨_, hrow⟩)

/-! ## One grid point's contribution, on the extended reals -/

/-- The similarity of local row `p` and local column `q` of the tile of point `t`. -/
theorem sim_at (c : Dev nD) (t : Fin cfg0.N) (p q : Fin 512) :
    k0_pay6 (F := Ideal) (iblk m c 0 t) (iblk m c 1 t) (ix2 p q)
      = simK (EA m c) (512 * (t.val / 16) + p.val) (512 * (t.val % 16) + q.val) := by
  rw [pay6_apply]
  have hs0 : ss (iblk m c 0 t) p = rowss (EA m c) (512 * (t.val / 16) + p.val) :=
    Finset.sum_congr rfl fun d _ => by rw [blk0_at]
  have hs1 : ss (iblk m c 1 t) q = rowss (EA m c) (512 * (t.val % 16) + q.val) :=
    Finset.sum_congr rfl fun d _ => by rw [blk1_at]
  rw [hs0, hs1]
  exact Finset.sum_congr rfl fun k _ => by rw [blk0_at, blk1_at]

/-- The mask word of that pair. -/
theorem mask_at (c : Dev nD) (t : Fin cfg0.N) (p q : Fin 512) :
    k0_pay7 (F := Ideal) (grid0.coords t) (iblk m c 2 t) (iblk m c 3 t) (ix2 p q)
      = mskK (YL m c) (512 * (t.val / 16) + p.val) (512 * (t.val % 16) + q.val) := by
  obtain ⟨-, -, -, -, -, -, -, -, e8, e9⟩ := grid_idx t
  rw [pay7_apply, blk2_at, blk3_at, e8, e9, row_word, row_word]
  rfl

/-- What the tile of a grid point (given by its number) adds to the first accumulator: the masked sum of similarities over
    its 512 × 512 pairs; -/
def tileLoss (c : Dev nD) (tv : ℕ) : EReal :=
  ∑ p : Fin 512, ∑ q : Fin 512, (fun r c' => simK (EA m c) r c' * FloatOps.sitofp (F := Ideal) .f32 (mskK (YL m c) r c')) (512 * (tv / 16) + p.val) (512 * (tv % 16) + q.val)
/-- to the second: the number of its masked-in pairs. -/
def tileCnt (c : Dev nD) (tv : ℕ) : EReal :=
  ∑ p : Fin 512, ∑ q : Fin 512, (fun r c' => FloatOps.sitofp (F := Ideal) .f32 (mskK (YL m c) r c')) (512 * (tv / 16) + p.val) (512 * (tv % 16) + q.val)

theorem tile4_at (c : Dev nD) (t : Fin cfg0.N) (a : Vec Ideal S1x1 .f32) (y : S1x1.Idx) :
    tile4 m c t a y = a y + tileLoss m c t.val := by
  unfold tile4 tileLoss
  rw [pay2_apply]
  refine congrArg (a y + ·) (Finset.sum_congr rfl fun p _ => Finset.sum_congr rfl fun q _ => ?_)
  rw [sim_at, mask_at]

theorem tile5_at (c : Dev nD) (t : Fin cfg0.N) (a : Vec Ideal S1x1 .f32) (y : S1x1.Idx) :
    tile5 m c t a y = a y + tileCnt m c t.val := by
  unfold tile5 tileCnt
  rw [pay3_apply]
  refine congrArg (a y + ·) (Finset.sum_congr rfl fun p _ => Finset.sum_congr rfl fun q _ => ?_)
  rw [mask_at]

/-! ## The accumulators after the last point -/

theorem pt_val' (t : Fin 256) : (pt t.val).val = t.val := Nat.mod_eq_of_lt t.isLt

/-- The first accumulator ends at the masked sum of similarities over all 8192 × 8192 pairs. -/
theorem acc4_total (c : Dev nD) : acc4 m c 255 (ix2 0 0) = 0 + lossSum (EA m c) (YL m c) := by
  have h := acc_eq_sum (k0_pay4 (F := Ideal) (ix2 0 0)) (fun n => tileLoss m c (pt n).val) (fun n => acc4 m c n (ix2 0 0))
    (tile4_at m c (pt 0) _ _) (fun n => tile4_at m c (pt (n + 1)) _ _) 255
  refine h.trans (congrArg₂ (· + ·) Ideal.ofBits_zero_f32 ?_)
  refine (Finset.sum_range (n := 256) fun n => tileLoss m c (pt n).val).trans ?_
  refine Eq.trans ?_ (sum_tiles (fun r c' => simK (EA m c) r c' * FloatOps.sitofp (F := Ideal) .f32 (mskK (YL m c) r c')))
  exact Finset.sum_congr rfl fun t _ => by rw [pt_val']; rfl

/-- The second ends at the number of masked-in pairs. -/
theorem acc5_total (c : Dev nD) : acc5 m c 255 (ix2 0 0) = 0 + cntSum (YL m c) := by
  have h := acc_eq_sum (k0_pay5 (F := Ideal) (ix2 0 0)) (fun n => tileCnt m c (pt n).val) (fun n => acc5 m c n (ix2 0 0))
    (tile5_at m c (pt 0) _ _) (fun n => tile5_at m c (pt (n + 1)) _ _) 255
  refine h.trans (congrArg₂ (· + ·) Ideal.ofBits_zero_f32 ?_)
  refine (Finset.sum_range (n := 256) fun n => tileCnt m c (pt n).val).trans ?_
  refine Eq.trans ?_ (sum_tiles (fun r c' => FloatOps.sitofp (F := Ideal) .f32 (mskK (YL m c) r c')))
  exact Finset.sum_congr rfl fun t _ => by rw [pt_val']; rfl

/-- THE KERNEL'S RESULT on the extended reals: the masked sum of similarities divided by the number of masked-in pairs. -/
theorem kernel_result (c : Dev nD) :
    Wfin m c main_v5 = fun _ => Ideal.div (0 + lossSum (EA m c) (YL m c)) (0 + cntSum (YL m c)) := by
  rw [result_eq, acc4_total, acc5_total]
  rfl

end Cert.KernelIdeal.Hand

end
-- ==== Proof.RefValue.lean ====
/-
  The reference's result, read stage by stage off its generated run, on the extended reals: every row of the embedding
  array divided by the square root of its sum of squares, the matrix of inner products of those rows, the mask (strict
  upper triangle and different labels) as 0 / 1, and the quotient of the masked sum of products by the sum of the mask.
-/
import proofs.«125900_j5763846111471_1_alg».proof.Proof.Gen.ReferenceIdeal.Read
import proofs.«125900_j5763846111471_1_alg».proof.Proof.Spec
import proofs.«125900_j5763846111471_1_alg».proof.Proof.Index
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Read
open Idealize.ShloMosaic Idealize.ShloMosaic.ValueIdx Cert.PairLoss

variable (A : (⟨S8192x512, .f32⟩ : BufTy).Contents (Elt Ideal)) (L : (⟨S8192, .i32⟩ : BufTy).Contents (Elt Ideal))

/-- The row sums of squares. -/
theorem v1_at (r : Fin 8192) : val_main_v1 (F := Ideal) A (ix1 r) = rowss (Eof A) r.val := by
  rw [val_main_v1_apply, val_main_cst_apply]
  show Ideal.ofBits .f32 0x00000000#32 + ∑ k : Fin 512, A (idx_main_v1 (ix1 r) k) * A (idx_main_v1 (ix1 r) k) = _
  rw [Ideal.ofBits_zero_f32, zero_add]
  refine Finset.sum_congr rfl fun d _ => ?_
  have e : idx_main_v1 (ix1 r) d = ix2 r d := funext fun a => Fin.ext (by
    match a with
    | ⟨0, _⟩ => rfl
    | ⟨1, _⟩ => rfl)
  rw [e, Eof_ix2 A r d]

/-- The normalised entry: the entry divided by the square root of its row's sum of squares. -/
theorem v5_at (r : Fin 8192) (k : Fin 512) :
    val_main_v5 (F := Ideal) A (ix2 r k) = Ideal.div (Eof A r.val k.val) (Ideal.sqrt (rowss (Eof A) r.val)) := by
  rw [val_main_v5_apply, val_main_v4_apply, val_main_v3_apply, val_main_v2_apply]
  have e : idx_main_v2 (idx_main_v4 (ix2 r k)) = ix1 r := funext fun a => Fin.ext (by
    match a with
    | ⟨0, _⟩ => rfl)
  rw [e, v1_at, Eof_ix2 A r k]
  rfl

/-- The matrix of inner products of normalised rows. -/
theorem v7_at (r c : Fin 8192) : val_main_v7 (F := Ideal) A (ix2 r c) = simR (Eof A) r.val c.val := by
  rw [val_main_v7_apply]
  refine Finset.sum_congr rfl fun k _ => ?_
  have el : lidx_main_v7 (ix2 r c) k = ix2 r k := funext fun a => Fin.ext (by
    match a with
    | ⟨0, _⟩ => rfl
    | ⟨1, _⟩ => rfl)
  have er : idx_main_v6 (ridx_main_v7 (ix2 r c) k) = ix2 c k := funext fun a => Fin.ext (by
    match a with
    | ⟨0, _⟩ => rfl
    | ⟨1, _⟩ => rfl)
  rw [val_main_v6_apply, el, er, v5_at, v5_at]

/-- The mask as 0 / 1. -/
theorem v16_at (r c : Fin 8192) :
    val_main_v16 (F := Ideal) L (ix2 r c) = FloatOps.uitofp (F := Ideal) .f32 (mskR (Yof L) r.val c.val) := by
  rw [val_main_v16_apply, val_main_v15_apply, val_main_v9_apply, val_main_v14_apply, val_main_v12_apply, val_main_v13_apply,
    val_main_v10_apply, val_main_v11_apply, val_main_v8_apply, val_main_c_apply, val_main_call0_v5_apply, val_main_call0_c_0_apply,
    val_main_call0_v4_apply, val_main_call0_v2_apply, val_main_call0_v3_apply, val_main_call0_v0_apply, val_main_call0_v1_apply,
    val_main_call0_c_apply]
  have e1 : idx_main_v10 (idx_main_v12 (ix2 r c)) = ix1 r := funext fun a => Fin.ext (by
    match a with
    | ⟨0, _⟩ => rfl)
  have e2 : idx_main_v11 (idx_main_v13 (ix2 r c)) = ix1 c := funext fun a => Fin.ext (by
    match a with
    | ⟨0, _⟩ => rfl)
  rw [e1, e2, Yof_ix1 L r, Yof_ix1 L c]
  rfl

/-- THE REFERENCE'S RESULT: the masked sum of inner products over all pairs, divided by the number of masked-in pairs. -/
theorem v20_eq : val_main_v20 (F := Ideal) A L = fun _ =>
    Ideal.div (0 + ∑ r : Fin 8192, ∑ c : Fin 8192, simR (Eof A) r.val c.val * FloatOps.uitofp (F := Ideal) .f32 (mskR (Yof L) r.val c.val))
      (0 + ∑ r : Fin 8192, ∑ c : Fin 8192, FloatOps.uitofp (F := Ideal) .f32 (mskR (Yof L) r.val c.val)) := by
  funext i
  rw [val_main_v20_apply, val_main_v19_apply, val_main_v17_apply, val_main_cst_1_apply, val_main_cst_0_apply]
  show Ideal.div (Ideal.ofBits .f32 0x00000000#32 + _) (Ideal.ofBits .f32 0x00000000#32 + _) = _
  rw [Ideal.ofBits_zero_f32, sum_idx2, sum_idx2]
  refine congrArg₂ Ideal.div (congrArg (0 + ·) ?_) (congrArg (0 + ·) ?_)
  · exact Finset.sum_congr rfl fun r _ => Finset.sum_congr rfl fun c _ => by
      rw [val_main_v18_apply, v7_at, v16_at]; rfl
  · exact Finset.sum_congr rfl fun r _ => Finset.sum_congr rfl fun c _ => v16_at L r c

end Cert.ReferenceIdeal.RefValue

end
-- ==== Proof.PreDecode.lean ====
/-
  The precondition, decoded: its second conjunct says of every row that the host's sum of the squares of its entries
  (zero plus the sum along the row) exceeds zero — on the extended reals, that the row's sum of squares is positive.
-/
import proofs.«125900_j5763846111471_1_alg».proof.Pre_finite_inputs
import proofs.«125900_j5763846111471_1_alg».proof.Proof.Gen.Pre_finite_inputs
import proofs.«125900_j5763846111471_1_alg».proof.Proof.Spec
import proofs.«125900_j5763846111471_1_alg».proof.Proof.Index
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

set_option maxRecDepth 16384

noncomputable section

open scoped BigOperators

namespace Cert.Pre_finite_inputs.Decode

open Cert.Pre_finite_inputs Cert.Pre_finite_inputs.Gen
open Idealize.ShloMosaic Idealize.ShloMosaic.ValueIdx Cert.PairLoss

instance : Subsingleton S_.Idx := ⟨fun a b => funext fun d => d.elim0⟩

/-- Under the precondition every row of the embedding array has a positive sum of squares. -/
theorem rows_pos (A : FVec Ideal S8192x512 .f32) (L : IVec S8192 32) (h : fn (F := Ideal) A L = fun _ => 1#1) (r : Fin 8192) :
    0 < rowss (Eof A) r.val := by
  have h0 := congrFun h ix0
  dsimp only [fn] at h0
  have h8 := (IntOp.andi_eq_one.1 h0).2
  have h7 := Host.reduce_andi_all _ _ reducesTo_S8192_S_d0 h_S_ ix0 h8 (ix1 r)
  have hv6 : broadcastInDim S8192 ![] bcast_S_S8192 (constant (F := Ideal) S_ .f32 0x00000000#32) (ix1 r) = 0 := by
    rw [broadcastInDim_apply _ bcast_S_S8192 _ (ix1 r) ix0 (fun a => a.elim0)]
    exact Ideal.ofBits_zero_f32
  have hv5 : Host.reduceAdd (mulf A A) (constant (F := Ideal) S_ .f32 0x00000000#32) reducesTo_S8192x512_S8192_d1 h_S_ (ix1 r)
      = rowss (Eof A) r.val := by
    simp only [Host.reduceAdd, Ideal.hostReduceAdd_def]
    rw [Ideal.hostReduceAdd_single reducesTo_S8192x512_S8192_d1 (by decide)]
    refine Eq.trans (congrArg₂ (· + ·) Ideal.ofBits_zero_f32 (Finset.sum_congr rfl fun k _ => ?_)) (zero_add _)
    refine (congrArg (mulf A A) (funext fun a => Fin.ext (by
      match a with
      | ⟨0, _⟩ => rfl
      | ⟨1, _⟩ => rfl) : _ = ix2 r k)).trans ?_
    show A (ix2 r k) * A (ix2 r k) = _
    rw [Eof_ix2 A r k]
  have h7' : Ideal.cmp .ogt (Host.reduceAdd (mulf A A) (constant (F := Ideal) S_ .f32 0x00000000#32) reducesTo_S8192x512_S8192_d1 h_S_ (ix1 r))
      (broadcastInDim S8192 ![] bcast_S_S8192 (constant (F := Ideal) S_ .f32 0x00000000#32) (ix1 r)) = 1#1 := h7
  rw [hv5, hv6] at h7'
  by_contra hn
  simp [Ideal.cmp, hn] at h7'

end Cert.Pre_finite_inputs.Decode

end
-- ==== Proof.Algebraic.lean ====
/-
  The algebraic conjunct: from memories that agree on the two arguments, the idealized kernel and the idealized reference
  both run to the end and leave the same extended real in their result buffers.

  The kernel's result is the quotient of the masked sum of similarities over all 8192 × 8192 pairs by the number of
  masked-in pairs, each similarity an inner product of rows scaled by the RECIPROCAL SQUARE ROOT of their sums of squares;
  the reference's is the same quotient with each row DIVIDED by the SQUARE ROOT of its sum of squares. The two scalings are
  one number wherever the sum of squares is positive — which the precondition states of every row — and the two spellings
  of the mask (a signed "less than" widened to a word and read signed; a select on "not greater or equal" read unsigned)
  are one number always. The final quotient is the same operation on both sides, so nothing is asked of the count.
-/
import proofs.«125900_j5763846111471_1_alg».proof.Defs
import proofs.«125900_j5763846111471_1_alg».proof.Proof.Gen.ReferenceIdeal.Run
import proofs.«125900_j5763846111471_1_alg».proof.Proof.Gen.ReferenceIdeal.Read
import proofs.«125900_j5763846111471_1_alg».proof.Proof.KernelValue
import proofs.«125900_j5763846111471_1_alg».proof.Proof.RefValue
import proofs.«125900_j5763846111471_1_alg».proof.Proof.PreDecode
import proofs.«125900_j5763846111471_1_alg».proof.Proof.Spec

noncomputable section

namespace Cert.Proof.Claims

open Idealize.ShloMosaic Idealize.SL.Sem Cert.PairLoss

theorem algebraic : Cert.algebraic_KernelIdeal_ReferenceIdeal := by
  intro m ρ m' ρ' hpre hagree
  refine ⟨fun c => Cert.KernelIdeal.Hand.Wfin m c Cert.KernelIdeal.main_v5, Cert.KernelIdeal.Hand.run_all m ρ, ?_⟩
  refine (θ_run Cert.ReferenceIdeal.defs _ _).mono (fun _ h c => ⟨(h c).1.trans ?_, (h c).2⟩)
    (Cert.ReferenceIdeal.Value.run (F := Ideal) m' ρ')
  have hpos := Cert.Pre_finite_inputs.Decode.rows_pos _ _ (hpre c)
  rw [Cert.ReferenceIdeal.Read.val_main_v20_eq, Cert.ReferenceIdeal.RefValue.v20_eq, (hagree c).1, (hagree c).2]
  show _ = Cert.KernelIdeal.Hand.Wfin m c Cert.KernelIdeal.main_v5
  rw [Cert.KernelIdeal.Hand.kernel_result, lossSum_eq _ _ hpos, cntSum_eq]
  rfl

end Cert.Proof.Claims

end
-- ==== Proof.lean ====
/-
  The certificate: the pairwise cosine-similarity loss kernel — for every pair of rows (r, c) with r below c and different
  labels, the cosine similarity of the two embedding rows, summed and divided by the number of such pairs, computed tile by
  tile over a 16 × 16 grid with two scalar accumulators — against its jnp reference, under the precondition that the
  embedding entries are finite and every row has a positive sum of squares (outside it the reference divides zero by zero).

  Proof/K and Proof/KI run the two printings of the kernel (one text, two instances): the body at the first grid point and
  at a later one (RunFirst, RunLater), the proof data and the body obligation (Data), the launch with the embedding array
  shared by two windows and the host lines around the region (Launch). Proof/KI/Result, Proof/PayIdeal and
  Proof/KernelValue read the idealized kernel's result; Proof/RefValue the reference's; Proof/PreDecode the precondition;
  Proof/Spec holds the mathematics that joins them; Proof/Frames and Proof/Algebraic state the conjuncts.
-/
import proofs.«125900_j5763846111471_1_alg».proof.Defs
import proofs.«125900_j5763846111471_1_alg».proof.Proof.Gen.Kernel
import proofs.«125900_j5763846111471_1_alg».proof.Proof.Gen.KernelIdeal
import proofs.«125900_j5763846111471_1_alg».proof.Proof.Gen.ReferenceIdeal
import proofs.«125900_j5763846111471_1_alg».proof.Proof.Gen.Pre_finite_inputs
import proofs.«125900_j5763846111471_1_alg».proof.Proof.Frames
import proofs.«125900_j5763846111471_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
